-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) (main_arg2 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  main_v13
-- ==== Kernel.lean ====
abbrev S16x4096x64 : Shape := ⟨3, ![16, 4096, 64]⟩
abbrev S1x1024x64 : Shape := ⟨3, ![1, 1024, 64]⟩
abbrev S1x1024x1 : Shape := ⟨3, ![1, 1024, 1]⟩
abbrev S1x1024x1024 : Shape := ⟨3, ![1, 1024, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x64, .bf16⟩
  | .hbm, ⟨4, _⟩ => ⟨S16x4096x64, .bf16⟩
  | .hbm, ⟨5, _⟩ => ⟨S16x4096x64, .bf16⟩
  | .hbm, ⟨6, _⟩ => ⟨S16x4096x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x64, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_34 : BitVec 32 := 0#32
  let v46 : BitVec 1 := Scalar.cmpi .ne v45 c0_i32_34
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x64 : S1x1024x1.Broadcasts S1x1024x64
  dot_S1x1024x64_S1x1024x64_S1x1024x1024_2_2_1_1_0_0_wf : DotDims.WF S1x1024x64 S1x1024x64 S1x1024x1024 [2] [2] [1] [1] [0] [0]
  dot_S1x1024x1024_S1x1024x64_S1x1024x64_2_1_1_2_0_0_wf : DotDims.WF S1x1024x1024 S1x1024x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x4096x64.size a
  hwx0_0 : ∀ i : grid0.Coords, EltTy.bits .bf16 = 32 ∨ (Rect.block (s := S16x4096x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x4096x64.size a
  hwx0_1 : ∀ i : grid0.Coords, EltTy.bits .bf16 = 32 ∨ (Rect.block (s := S16x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x4096x64.size a
  hwx0_2 : ∀ i : grid0.Coords, EltTy.bits .bf16 = 32 ∨ (Rect.block (s := S16x4096x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x4096x64.size a
  hwx0_3 : ∀ i : grid0.Coords, EltTy.bits .f32 = 32 ∨ (Rect.block (s := S16x4096x64) S1x1024x64.size (cc0_transform_3 i) (hinb0_3 i)).WholeWords (EltTy.packing .f32)

variable [Facts₀]

def dot_S1x1024x64_S1x1024x64_S1x1024x1024_2_2_1_1_0_0 : DotDims S1x1024x64 S1x1024x64 S1x1024x1024 where
  lhsContracting := [2]
  rhsContracting := [2]
  lhsNonContracting := [1]
  rhsNonContracting := [1]
  lhsBatch := [0]
  rhsBatch := [0]
  wf := dot_S1x1024x64_S1x1024x64_S1x1024x1024_2_2_1_1_0_0_wf
def dot_S1x1024x1024_S1x1024x64_S1x1024x64_2_1_1_2_0_0 : DotDims S1x1024x1024 S1x1024x64 S1x1024x64 where
  lhsContracting := [2]
  rhsContracting := [1]
  lhsNonContracting := [1]
  rhsNonContracting := [2]
  lhsBatch := [0]
  rhsBatch := [0]
  wf := dot_S1x1024x1024_S1x1024x64_S1x1024x64_2_1_1_2_0_0_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x4096x4096, .f32⟩
  | .hbm, ⟨8, _⟩ => ⟨S16x4096x4096, .f32⟩
  | .hbm, ⟨9, _⟩ => ⟨S16x4096x4096, .f32⟩
  | .hbm, ⟨10, _⟩ => ⟨S_, .f32⟩
  | .hbm, ⟨11, _⟩ => ⟨S16x4096, .f32⟩
  | .hbm, ⟨12, _⟩ => ⟨S_, .f32⟩
  | .hbm, ⟨13, _⟩ => ⟨S16x4096, .f32⟩
  | .hbm, ⟨14, _⟩ => ⟨S16x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096, .f32⟩
  | .hbm, ⟨21, _⟩ => ⟨S16x4096x1, .f32⟩
  | .hbm, ⟨22, _⟩ => ⟨S16x4096x4096, .f32⟩
  | .hbm, ⟨23, _⟩ => ⟨S16x4096x4096, .f32⟩
  | .hbm, ⟨24, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.Softmax.lean ====
/-
  The running ("online") softmax of one query row, over the extended reals.

  A query row meets its keys tile by tile. After some tiles the state is a triple: a running maximum, a running
  normalizer and a running weighted sum. A new tile with scores s and values v replaces the state (M, l, a) by
    M' = max M (max over the tile of s),   l' = exp (M - M') * l + sum exp (s - M'),
    a' = exp (M - M') * a + sum exp (s - M') * v,
  starting from (-infinity, 0, 0). When every score and value is a real number the state after n tiles is, for SOME
  real shift mu, the pair of sums  l = sum exp (s - mu),  a = sum exp (s - mu) * v  over all keys met so far: the law is
  exp (x - mu) = exp (mu' - mu) * exp (x - mu'), so that changing the shift multiplies both sums by one factor. Which real
  the shift is does not matter: the quotient a / l is the same for every shift, and it is the softmax-weighted mean
    (sum exp s * v) / (sum exp s).
  Finiteness is used throughout: products distribute over these sums only because every term is a real number.
-/
import Idealize.ShloMosaic.PureOps.Ideal
import Idealize.ShloMosaic.PureOps.Ideal.Laws

noncomputable section

namespace Cert.Flash

open Idealize.ShloMosaic

/-! ## Real sums as extended reals -/

theorem coe_sum {ι : Type} (S : Finset ι) (f : ι → ℝ) :
    (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

theorem coe_max (x y : ℝ) : ((max x y : ℝ) : EReal) = max (x : EReal) (y : EReal) :=
  EReal.coe_strictMono.monotone.map_max

/-- The maximum of finitely many real numbers, folded from minus infinity, is a real number when there is at least one. -/
theorem fold_max_real {ι : Type} (S : Finset ι) (hS : S.Nonempty) (f : ι → ℝ) :
    ∃ τ : ℝ, S.fold max (⊥ : EReal) (fun k => ((f k : ℝ) : EReal)) = (τ : EReal) := by
  induction hS using Finset.Nonempty.cons_induction with
  | singleton a => exact ⟨f a, by rw [Finset.fold_singleton]; exact max_bot_right _⟩
  | cons a s ha hs ih =>
    obtain ⟨τ, hτ⟩ := ih
    exact ⟨max (f a) τ, by rw [Finset.fold_cons, hτ, coe_max]⟩

theorem ofBits_neg_inf : Ideal.ofBits .f32 0xFF800000#32 = (⊥ : EReal) := by
  simp [Ideal.ofBits, Ideal.ieee]

/-- The kernel's scale 0.125 is the real 1/8. -/
theorem ofBits_eighth : Ideal.ofBits .f32 0x3E000000#32 = (((1 / 8 : ℝ)) : EReal) := by
  simp [Ideal.ofBits, Ideal.ieee, -EReal.coe_mul]; norm_num

/-- The reference's 64.0 is the real 64, -/
theorem ofBits_64 : Ideal.ofBits .f32 0x42800000#32 = ((64 : ℝ) : EReal) := by
  simp [Ideal.ofBits, Ideal.ieee, -EReal.coe_mul]; norm_num

/-- and its 1.0 the real 1. -/
theorem ofBits_one : Ideal.ofBits .f32 0x3F800000#32 = ((1 : ℝ) : EReal) := by
  simp [Ideal.ofBits, Ideal.ieee, -EReal.coe_mul]; norm_num

/-- The reference's scale 1 / sqrt 64 is the same real 1/8: 64 is the square of 8. -/
theorem ref_scale : Ideal.div (Ideal.ofBits .f32 0x3F800000#32) (Ideal.sqrt (Ideal.ofBits .f32 0x42800000#32))
    = (((1 / 8 : ℝ)) : EReal) := by
  have h8 : Real.sqrt 64 = 8 := by
    rw [show (64 : ℝ) = 8 ^ 2 by norm_num]; exact Real.sqrt_sq (by norm_num)
  rw [ofBits_64, ofBits_one, Ideal.sqrt_coe, if_neg (by norm_num), h8, Ideal.div_coe (by norm_num), ← EReal.coe_mul]
  norm_num

/-! ## The shift law, over the reals -/

/-- Sums of exp (x - mu) * w over the keys of the first n tiles. -/
def part {K : ℕ} (s w : ℕ → Fin K → ℝ) (n : ℕ) (μ : ℝ) : ℝ :=
  ∑ i ∈ Finset.range n, ∑ k : Fin K, Real.exp (s i k - μ) * w i k

theorem part_zero {K : ℕ} (s w : ℕ → Fin K → ℝ) (μ : ℝ) : part s w 0 μ = 0 := by
  simp [part]

/-- One more tile: the old sums rescaled to the new shift, plus the tile's own terms. -/
theorem part_succ {K : ℕ} (s w : ℕ → Fin K → ℝ) (n : ℕ) (μ μ' : ℝ) :
    Real.exp (μ - μ') * part s w n μ + ∑ k : Fin K, Real.exp (s n k - μ') * w n k = part s w (n + 1) μ' := by
  unfold part
  rw [Finset.sum_range_succ, Finset.mul_sum]
  congr 1
  refine Finset.sum_congr rfl fun i _ => ?_
  rw [Finset.mul_sum]
  refine Finset.sum_congr rfl fun k _ => ?_
  rw [← mul_assoc, ← Real.exp_add]
  congr 2
  ring

/-- Taking the shift out of the sums. -/
theorem part_shift {K : ℕ} (s w : ℕ → Fin K → ℝ) (n : ℕ) (μ : ℝ) :
    part s w n μ = Real.exp (-μ) * part s w n 0 := by
  unfold part
  rw [Finset.mul_sum]
  refine Finset.sum_congr rfl fun i _ => ?_
  rw [Finset.mul_sum]
  refine Finset.sum_congr rfl fun k _ => ?_
  rw [← mul_assoc, ← Real.exp_add]
  congr 2
  ring

theorem part_one_pos {K : ℕ} (hK : 0 < K) (s : ℕ → Fin K → ℝ) (n : ℕ) (hn : 0 < n) (μ : ℝ) :
    0 < part s (fun _ _ => 1) n μ := by
  unfold part
  refine Finset.sum_pos (fun i _ => Finset.sum_pos (fun k _ => by positivity) ⟨⟨0, hK⟩, Finset.mem_univ _⟩)
    ⟨0, Finset.mem_range.2 hn⟩

/-- The quotient of the two sums does not depend on the shift. -/
theorem part_div {K : ℕ} (hK : 0 < K) (s w : ℕ → Fin K → ℝ) (n : ℕ) (hn : 0 < n) (μ : ℝ) :
    part s w n μ / part s (fun _ _ => 1) n μ = part s w n 0 / part s (fun _ _ => 1) n 0 := by
  rw [part_shift s w n μ, part_shift s (fun _ _ => 1) n μ]
  have h0 : part s (fun _ _ => 1) n 0 ≠ 0 := (part_one_pos hK s n hn 0).ne'
  have he : Real.exp (-μ) ≠ 0 := (Real.exp_pos _).ne'
  field_simp

/-! ## One tile of the running softmax, over the extended reals -/

/-- The new running maximum. -/
def stepM {K : ℕ} (M : EReal) (sc : Fin K → EReal) : EReal :=
  max M ((Finset.univ : Finset (Fin K)).fold max (⊥ : EReal) sc)

/-- The new running normalizer. -/
def stepL {K : ℕ} (M l : EReal) (sc : Fin K → EReal) : EReal :=
  Ideal.exp (M - stepM M sc) * l + ∑ k : Fin K, Ideal.exp (sc k - stepM M sc)

/-- The new running weighted sum. -/
def stepA {K : ℕ} (M a : EReal) (sc vals : Fin K → EReal) : EReal :=
  Ideal.exp (M - stepM M sc) * a + ∑ k : Fin K, Ideal.exp (sc k - stepM M sc) * vals k

theorem exp_coe_sub (x y : ℝ) : Ideal.exp ((x : EReal) - (y : EReal)) = ((Real.exp (x - y) : ℝ) : EReal) := by
  rw [← EReal.coe_sub]; rfl

theorem exp_bot_sub (y : ℝ) : Ideal.exp ((⊥ : EReal) - (y : EReal)) = 0 := by
  rw [EReal.bot_sub]; rfl

/-- A tile met by a state of real numbers. -/
theorem step_real {K : ℕ} (hK : 0 < K) (σ : Fin K → ℝ) (μ : ℝ) :
    ∃ μ' : ℝ, stepM (μ : EReal) (fun k => ((σ k : ℝ) : EReal)) = (μ' : EReal)
      ∧ (∀ l : ℝ, stepL (μ : EReal) (l : EReal) (fun k => ((σ k : ℝ) : EReal))
          = ((Real.exp (μ - μ') * l + ∑ k : Fin K, Real.exp (σ k - μ') * 1 : ℝ) : EReal))
      ∧ (∀ (a : ℝ) (ν : Fin K → ℝ), stepA (μ : EReal) (a : EReal) (fun k => ((σ k : ℝ) : EReal)) (fun k => ((ν k : ℝ) : EReal))
          = ((Real.exp (μ - μ') * a + ∑ k : Fin K, Real.exp (σ k - μ') * ν k : ℝ) : EReal)) := by
  obtain ⟨τ, hτ⟩ := fold_max_real (Finset.univ : Finset (Fin K)) ⟨⟨0, hK⟩, Finset.mem_univ _⟩ σ
  have hM : stepM (μ : EReal) (fun k => ((σ k : ℝ) : EReal)) = ((max μ τ : ℝ) : EReal) := by
    unfold stepM; rw [hτ, coe_max]
  refine ⟨max μ τ, hM, fun l => ?_, fun a ν => ?_⟩
  · unfold stepL
    rw [hM, exp_coe_sub]
    simp only [exp_coe_sub, mul_one]
    rw [coe_sum, ← EReal.coe_mul, ← EReal.coe_add]
  · unfold stepA
    rw [hM, exp_coe_sub]
    simp only [exp_coe_sub, ← EReal.coe_mul]
    rw [coe_sum, ← EReal.coe_add]

/-- The first tile, met by the state (-infinity, 0, 0). -/
theorem step_init {K : ℕ} (hK : 0 < K) (σ : Fin K → ℝ) :
    ∃ μ' : ℝ, stepM (⊥ : EReal) (fun k => ((σ k : ℝ) : EReal)) = (μ' : EReal)
      ∧ stepL (⊥ : EReal) 0 (fun k => ((σ k : ℝ) : EReal)) = ((∑ k : Fin K, Real.exp (σ k - μ') * 1 : ℝ) : EReal)
      ∧ (∀ ν : Fin K → ℝ, stepA (⊥ : EReal) 0 (fun k => ((σ k : ℝ) : EReal)) (fun k => ((ν k : ℝ) : EReal))
          = ((∑ k : Fin K, Real.exp (σ k - μ') * ν k : ℝ) : EReal)) := by
  obtain ⟨τ, hτ⟩ := fold_max_real (Finset.univ : Finset (Fin K)) ⟨⟨0, hK⟩, Finset.mem_univ _⟩ σ
  have hM : stepM (⊥ : EReal) (fun k => ((σ k : ℝ) : EReal)) = (τ : EReal) := by
    unfold stepM; rw [hτ]; exact max_bot_left _
  refine ⟨τ, hM, ?_, fun ν => ?_⟩
  · unfold stepL
    rw [hM, exp_bot_sub, zero_mul, zero_add]
    simp only [exp_coe_sub, mul_one]
    rw [coe_sum]
  · unfold stepA
    rw [hM, exp_bot_sub, zero_mul, zero_add]
    simp only [exp_coe_sub, ← EReal.coe_mul]
    rw [coe_sum]

/-- The closing quotient of two real sums, the normalizer not zero. -/
theorem div_real (a l : ℝ) (hl : l ≠ 0) : Ideal.div (a : EReal) (l : EReal) = ((a / l : ℝ) : EReal) := by
  rw [Ideal.div_coe hl, ← EReal.coe_mul]
  congr 1
  ring

end Cert.Flash

end
-- ==== Proof.Spec.lean ====
/-
  The function both programs compute: scaled-dot-product attention, index by index, over real arrays.

  For batch b, query row q and output column c, with the scores  s(key) = sum over the 64 features of (Q[b, q, ·] / 8) * K[b, key, ·],
    G[b, q, c] = (sum over the 4096 keys of exp s(key) * V[b, key, c]) / (sum over the 4096 keys of exp s(key)).
  The 4096 keys are taken as four tiles of 1024 (key = 1024 * tile + k), the order in which the kernel meets them; a sum
  over all keys is the sum over the tiles of the sums over each tile. The reference's softmax, with ANY real shift mu
  under the exponentials and the normalizer inside the sum, is this same mean.
-/
import proofs.«115019_j87308095193108_2_alg».proof.Proof.Softmax
import Idealize.ShloMosaic.Lib.ValueIdx

noncomputable section

namespace Cert.Flash

open Idealize.ShloMosaic Idealize.ShloMosaic.ValueIdx

/-- The batch of run g (a run: the four key tiles of one query tile; g = n / 4 for the grid point n). -/
def bG (g : ℕ) : Fin 16 := ⟨g / 4 % 16, Nat.mod_lt _ (by norm_num)⟩
/-- Row r of run g's query tile, as a row of the array. -/
def qG (g : ℕ) (r : Fin 1024) : Fin 4096 := ⟨(1024 * (g % 4) + r.val) % 4096, Nat.mod_lt _ (by norm_num)⟩
/-- Key k of key tile i, as a row of the array. -/
def keyOf (i : ℕ) (k : Fin 1024) : Fin 4096 := ⟨(1024 * i + k.val) % 4096, Nat.mod_lt _ (by norm_num)⟩

abbrev Arr : Type := (⟨3, ![16, 4096, 64]⟩ : Shape).Idx → ℝ

/-- The score of query row (b, q) against key k of tile i. -/
def sc (qr kr : Arr) (b : Fin 16) (q : Fin 4096) (i : ℕ) (k : Fin 1024) : ℝ :=
  ∑ d : Fin 64, (qr (ix3 b q d) * (1 / 8)) * kr (ix3 b (keyOf i k) d)

/-- Column c of the value row of key k of tile i. -/
def va (vr : Arr) (b : Fin 16) (c : Fin 64) (i : ℕ) (k : Fin 1024) : ℝ := vr (ix3 b (keyOf i k) c)

/-- Attention at (b, q, c). -/
def Gat (qr kr vr : Arr) (b : Fin 16) (q : Fin 4096) (c : Fin 64) : EReal :=
  ((part (sc qr kr b q) (va vr b c) 4 0 / part (sc qr kr b q) (fun _ _ => 1) 4 0 : ℝ) : EReal)

/-- Attention, as an array. -/
def G (qr kr vr : Arr) : (⟨3, ![16, 4096, 64]⟩ : Shape).Idx → EReal :=
  fun j => Gat qr kr vr ⟨(j 0).val, (j 0).isLt⟩ ⟨(j 1).val, (j 1).isLt⟩ ⟨(j 2).val, (j 2).isLt⟩

theorem G_ix3 (qr kr vr : Arr) (b : Fin 16) (q : Fin 4096) (c : Fin 64) : G qr kr vr (ix3 b q c) = Gat qr kr vr b q c := rfl

/-- A sum over all 4096 keys, tile by tile. -/
theorem sum_tiles (f : Fin 4096 → ℝ) : ∑ i ∈ Finset.range 4, ∑ k : Fin 1024, f (keyOf i k) = ∑ k : Fin 4096, f k := by
  rw [Finset.sum_range (fun i => ∑ k : Fin 1024, f (keyOf i k))]
  rw [← Fintype.sum_prod_type' (f := fun (i : Fin 4) (k : Fin 1024) => f (keyOf i.val k))]
  refine Fintype.sum_equiv (finProdFinEquiv : Fin 4 × Fin 1024 ≃ Fin 4096) _ _ fun x => congrArg f (Fin.ext ?_)
  obtain ⟨i, k⟩ := x
  show (1024 * i.val + k.val) % 4096 = k.val + 1024 * i.val
  have := i.isLt; have := k.isLt; omega

/-- The softmax with a shift under the exponentials and the normalizer inside the sum is the weighted mean. -/
theorem softmax_mean {ι : Type} [Fintype ι] [Nonempty ι] (ρ v : ι → ℝ) (μ : ℝ) :
    ∑ k, (Real.exp (ρ k - μ) / ∑ k', Real.exp (ρ k' - μ)) * v k = (∑ k, Real.exp (ρ k) * v k) / ∑ k, Real.exp (ρ k) := by
  have hpos : 0 < ∑ k, Real.exp (ρ k) := Finset.sum_pos (fun k _ => Real.exp_pos _) Finset.univ_nonempty
  have hL : ∑ k', Real.exp (ρ k' - μ) = Real.exp (-μ) * ∑ k, Real.exp (ρ k) := by
    rw [Finset.mul_sum]; exact Finset.sum_congr rfl fun k _ => by rw [sub_eq_add_neg, Real.exp_add, mul_comm]
  rw [hL, Finset.sum_div]
  refine Finset.sum_congr rfl fun k _ => ?_
  rw [sub_eq_add_neg, Real.exp_add]
  have he : Real.exp (-μ) ≠ 0 := (Real.exp_pos _).ne'
  have h0 : ∑ k, Real.exp (ρ k) ≠ 0 := hpos.ne'
  field_simp

/-- The reference scales the finished dot product, the kernel the query row first: the same real number. -/
theorem score_forms (qr kr : Arr) (b : Fin 16) (q key : Fin 4096) :
    (∑ d : Fin 64, qr (ix3 b q d) * kr (ix3 b key d)) * (1 / 8) = ∑ d : Fin 64, (qr (ix3 b q d) * (1 / 8)) * kr (ix3 b key d) := by
  rw [Finset.sum_mul]; exact Finset.sum_congr rfl fun d _ => by ring

/-- The two sums of G over all keys at once: what the reference's sums are compared with. -/
theorem part_all (f : Fin 4096 → ℝ) (w : Fin 4096 → ℝ) :
    part (fun i k => f (keyOf i k)) (fun i k => w (keyOf i k)) 4 0 = ∑ k : Fin 4096, Real.exp (f k) * w k := by
  unfold part
  simp only [sub_zero]
  exact sum_tiles fun k => Real.exp (f k) * w k

end Cert.Flash

end
-- ==== Proof.Blocks.lean ====
/-
  The blocks a grid point works on, as entries of the argument arrays.

  The 256 grid points are (batch, query tile, key tile) = (n / 16, n / 4 % 4, n % 4) in launch order. At point n
  * the query window's block (and the output window's) is rows 1024 * (n / 4 % 4) … of batch n / 16,
  * the key and value windows' blocks are rows 1024 * (n % 4) … of the same batch,
  each across all 64 features. The arrays the windows stage are the arguments after a change of float format, which
  changes nothing at the ideal values.
-/
import proofs.«115019_j87308095193108_2_alg».proof.Proof.Gen.KernelIdeal.Frame
import proofs.«115019_j87308095193108_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx Cert.Flash
open Idealize.ShloMosaic.Pipeline (Dat)

variable (m : (ℓ : Loc nD τ sig) → Buf (Elt Ideal) ℓ)

/-- The printed index maps, decided once over the grid. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-- The three staged arrays are the arguments (the change of format is the identity at the ideal values). -/
theorem V_v0 (c : Dev nD) : (V m c main_v0 : S16x4096x64.Idx → EReal) = fun i => m ((c : Thread nD τ).loc main_arg0) i := by
  dsimp only [Gen.V, Gen.hostOps0]; after_results; rfl
theorem V_v1 (c : Dev nD) : (V m c main_v1 : S16x4096x64.Idx → EReal) = fun i => m ((c : Thread nD τ).loc main_arg1) i := by
  dsimp only [Gen.V, Gen.hostOps0]; after_results; rfl
theorem V_v2 (c : Dev nD) : (V m c main_v2 : S16x4096x64.Idx → EReal) = fun i => m ((c : Thread nD τ).loc main_arg2) i := by
  dsimp only [Gen.V, Gen.hostOps0]; after_results; rfl

/-- The query block at point t. -/
theorem iblk0_apply (c : Dev nD) (t : Fin cfg0.N) (r : Fin 1024) (d : Fin 64) :
    (iblk m c 0 t : FVec Ideal S1x1024x64 .bf16) (ix3 (0 : Fin 1) r d)
      = m ((c : Thread nD τ).loc main_arg0) (ix3 (bG (t.val / 4)) (qG (t.val / 4) r) d) := by
  obtain ⟨e0, e1, e2, -⟩ := idx_facts t
  have hN : t.val < 256 := lt_of_lt_of_eq t.isLt (show cfg0.N = 256 from N_0)
  show V m c main_v0 (((cfg0.win 0).blk t).view.emb (ix3 (0 : Fin 1) r d)) = _
  rw [V_v0]
  refine congrArg (m ((c : Thread nD τ).loc main_arg0)) (funext fun a => Fin.ext ?_)
  match a with
  | ⟨0, _⟩ => show win0_0.index t (0 : Fin 3) * 1 + 1 * 0 = t.val / 4 / 4 % 16; omega
  | ⟨1, _⟩ => show win0_0.index t (1 : Fin 3) * 1024 + 1 * r.val = (1024 * (t.val / 4 % 4) + r.val) % 4096; have := r.isLt; omega
  | ⟨2, _⟩ => show win0_0.index t (2 : Fin 3) * 64 + 1 * d.val = d.val; omega

/-- The key block at point t. -/
theorem iblk1_apply (c : Dev nD) (t : Fin cfg0.N) (k : Fin 1024) (d : Fin 64) :
    (iblk m c 1 t : FVec Ideal S1x1024x64 .bf16) (ix3 (0 : Fin 1) k d)
      = m ((c : Thread nD τ).loc main_arg1) (ix3 (bG (t.val / 4)) (keyOf (t.val % 4) k) d) := by
  obtain ⟨-, -, -, e0, e1, e2, -⟩ := idx_facts t
  have hN : t.val < 256 := lt_of_lt_of_eq t.isLt (show cfg0.N = 256 from N_0)
  show V m c main_v1 (((cfg0.win 1).blk t).view.emb (ix3 (0 : Fin 1) k d)) = _
  rw [V_v1]
  refine congrArg (m ((c : Thread nD τ).loc main_arg1)) (funext fun a => Fin.ext ?_)
  match a with
  | ⟨0, _⟩ => show win0_1.index t (0 : Fin 3) * 1 + 1 * 0 = t.val / 4 / 4 % 16; omega
  | ⟨1, _⟩ => show win0_1.index t (1 : Fin 3) * 1024 + 1 * k.val = (1024 * (t.val % 4) + k.val) % 4096; have := k.isLt; omega
  | ⟨2, _⟩ => show win0_1.index t (2 : Fin 3) * 64 + 1 * d.val = d.val; omega

/-- The value block at point t. -/
theorem iblk2_apply (c : Dev nD) (t : Fin cfg0.N) (k : Fin 1024) (d : Fin 64) :
    (iblk m c 2 t : FVec Ideal S1x1024x64 .bf16) (ix3 (0 : Fin 1) k d)
      = m ((c : Thread nD τ).loc main_arg2) (ix3 (bG (t.val / 4)) (keyOf (t.val % 4) k) d) := by
  obtain ⟨-, -, -, -, -, -, e0, e1, e2, -⟩ := idx_facts t
  have hN : t.val < 256 := lt_of_lt_of_eq t.isLt (show cfg0.N = 256 from N_0)
  show V m c main_v2 (((cfg0.win 2).blk t).view.emb (ix3 (0 : Fin 1) k d)) = _
  rw [V_v2]
  refine congrArg (m ((c : Thread nD τ).loc main_arg2)) (funext fun a => Fin.ext ?_)
  match a with
  | ⟨0, _⟩ => show win0_2.index t (0 : Fin 3) * 1 + 1 * 0 = t.val / 4 / 4 % 16; omega
  | ⟨1, _⟩ => show win0_2.index t (1 : Fin 3) * 1024 + 1 * k.val = (1024 * (t.val % 4) + k.val) % 4096; have := k.isLt; omega
  | ⟨2, _⟩ => show win0_2.index t (2 : Fin 3) * 64 + 1 * d.val = d.val; omega

/-- Where the output window's block at point t sits in the result array. -/
theorem emb3_apply (t : Fin cfg0.N) (r : Fin 1024) (d : Fin 64) :
    ((cfg0.win 3).blk t).view.emb (ix3 (0 : Fin 1) r d) = ix3 (bG (t.val / 4)) (qG (t.val / 4) r) d := by
  obtain ⟨-, -, -, -, -, -, -, -, -, e0, e1, e2⟩ := idx_facts t
  have hN : t.val < 256 := lt_of_lt_of_eq t.isLt (show cfg0.N = 256 from N_0)
  refine funext fun a => Fin.ext ?_
  match a with
  | ⟨0, _⟩ => show win0_3.index t (0 : Fin 3) * 1 + 1 * 0 = t.val / 4 / 4 % 16; omega
  | ⟨1, _⟩ => show win0_3.index t (1 : Fin 3) * 1024 + 1 * r.val = (1024 * (t.val / 4 % 4) + r.val) % 4096; have := r.isLt; omega
  | ⟨2, _⟩ => show win0_3.index t (2 : Fin 3) * 64 + 1 * d.val = d.val; omega

/-! ## The three input blocks at a point, named at their literal vector type -/

def B0 (c : Dev nD) (t : Fin cfg0.N) : FVec Ideal S1x1024x64 .bf16 := iblk m c 0 t
def B1 (c : Dev nD) (t : Fin cfg0.N) : FVec Ideal S1x1024x64 .bf16 := iblk m c 1 t
def B2 (c : Dev nD) (t : Fin cfg0.N) : FVec Ideal S1x1024x64 .bf16 := iblk m c 2 t

theorem B0_apply (c : Dev nD) (t : Fin cfg0.N) (r : Fin 1024) (d : Fin 64) :
    B0 m c t (ix3 (0 : Fin 1) r d) = m ((c : Thread nD τ).loc main_arg0) (ix3 (bG (t.val / 4)) (qG (t.val / 4) r) d) :=
  iblk0_apply m c t r d
theorem B1_apply (c : Dev nD) (t : Fin cfg0.N) (k : Fin 1024) (d : Fin 64) :
    B1 m c t (ix3 (0 : Fin 1) k d) = m ((c : Thread nD τ).loc main_arg1) (ix3 (bG (t.val / 4)) (keyOf (t.val % 4) k) d) :=
  iblk1_apply m c t k d
theorem B2_apply (c : Dev nD) (t : Fin cfg0.N) (k : Fin 1024) (d : Fin 64) :
    B2 m c t (ix3 (0 : Fin 1) k d) = m ((c : Thread nD τ).loc main_arg2) (ix3 (bG (t.val / 4)) (keyOf (t.val % 4) k) d) :=
  iblk2_apply m c t k d

end Cert.KernelIdeal.Blocks

end
-- ==== Proof.Pieces.lean ====
/-
  What each control case of the body leaves behind, as values.

  The body has three cases: the first key tile of a run (the scratch is reset first), a middle tile, and the last tile
  (which also writes the output block). In each case every buffer the body stores into ends holding ONE value, the payload
  of its last store, as a function of the three input blocks and of the scratch as the point found it:
    running maximum   m' = step of (m, scores),
    normalizer        l' = step of (m, l, scores),
    weighted sums     a' = step of (m, a, scores, values),
  with (m, l, a) the reset values in the first case; the last case's output block is a' / l'.
  Stated for every reading of the floats.
-/
import proofs.«115019_j87308095193108_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl

/-! ## A middle tile -/

theorem mid_m (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : ¬cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout0_B_0 c i arg3 harg3 arg4 harg4 arg5 harg5 arg6 harg6 arg7 harg7 arg8 harg8 arg9 harg9 hc0 hc1 x0 x1 x2 xs0 xs1 xs2 = k0_pay3 (k0_pay10 x0 x1 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem mid_l (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : ¬cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout0_B_1 c i arg3 harg3 arg4 harg4 arg5 harg5 arg6 harg6 arg7 harg7 arg8 harg8 arg9 harg9 hc0 hc1 x0 x1 x2 xs0 xs1 xs2 = k0_pay1 (k0_pay13 x0 x1 xs0 xs0 xs1) := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem mid_a (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : ¬cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout0_B_2 c i arg3 harg3 arg4 harg4 arg5 harg5 arg6 harg6 arg7 harg7 arg8 harg8 arg9 harg9 hc0 hc1 x0 x1 x2 xs0 xs1 xs2 = k0_pay2 (k0_pay8 x2) (k0_pay11 x0 x1 xs0 xs0) (k0_pay12 x0 x1 xs0) xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

/-! ## The last tile -/

theorem last_m (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout0_C_0 c i arg3 harg3 arg4 harg4 arg5 harg5 arg6 harg6 arg7 harg7 arg8 harg8 arg9 harg9 hc0 hc1 x0 x1 x2 xs0 xs1 xs2 = k0_pay3 (k0_pay10 x0 x1 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem last_l (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout0_C_1 c i arg3 harg3 arg4 harg4 arg5 harg5 arg6 harg6 arg7 harg7 arg8 harg8 arg9 harg9 hc0 hc1 x0 x1 x2 xs0 xs1 xs2 = k0_pay1 (k0_pay13 x0 x1 xs0 xs0 xs1) := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem last_a (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout0_C_2 c i arg3 harg3 arg4 harg4 arg5 harg5 arg6 harg6 arg7 harg7 arg8 harg8 arg9 harg9 hc0 hc1 x0 x1 x2 xs0 xs1 xs2 = k0_pay2 (k0_pay8 x2) (k0_pay11 x0 x1 xs0 xs0) (k0_pay12 x0 x1 xs0) xs2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem last_out (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond0_0 i) (hc1 : cond0_1 i) (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    out0_C_3 c i arg3 harg3 arg4 harg4 arg5 harg5 arg6 harg6 arg7 harg7 arg8 harg8 arg9 harg9 hc0 hc1 x0 x1 x2 xs0 xs1 xs2 = k0_pay4 (k0_pay2 (k0_pay8 x2) (k0_pay11 x0 x1 xs0 xs0) (k0_pay12 x0 x1 xs0) xs2) (k0_pay1 (k0_pay13 x0 x1 xs0 xs0 xs1)) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

/-! ## The first tile -/

theorem first_m (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond0_0 i) (hc1 : ¬cond0_1 i) (x0 : Vec F S1x1024x64 .bf16) (x1 : Vec F S1x1024x64 .bf16) (x2 : Vec F S1x1024x64 .bf16) :
    sout0_A_0 c i arg3 harg3 arg4 harg4 arg5 harg5 arg6 harg6 arg7 harg7 arg8 harg8 arg9 harg9 hc0 hc1 x0 x1 x2 = k0_pay3 (k0_pay10 x0 x1 (k0_pay5 (F := F))) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024x1) hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem first_l (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond0_0 i) (hc1 : ¬cond0_1 i) (x0 : Vec F S1x1024x64 .bf16) (x1 : Vec F S1x1024x64 .bf16) (x2 : Vec F S1x1024x64 .bf16) :
    sout0_A_1 c i arg3 harg3 arg4 harg4 arg5 harg5 arg6 harg6 arg7 harg7 arg8 harg8 arg9 harg9 hc0 hc1 x0 x1 x2 = k0_pay1 (k0_pay13 x0 x1 (k0_pay5 (F := F)) (k0_pay5 (F := F)) (k0_pay6 (F := F))) := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024x1) hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

theorem first_a (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond0_0 i) (hc1 : ¬cond0_1 i) (x0 : Vec F S1x1024x64 .bf16) (x1 : Vec F S1x1024x64 .bf16) (x2 : Vec F S1x1024x64 .bf16) :
    sout0_A_2 c i arg3 harg3 arg4 harg4 arg5 harg5 arg6 harg6 arg7 harg7 arg8 harg8 arg9 harg9 hc0 hc1 x0 x1 x2 = k0_pay2 (k0_pay8 x2) (k0_pay11 x0 x1 (k0_pay5 (F := F)) (k0_pay5 (F := F))) (k0_pay12 x0 x1 (k0_pay5 (F := F))) (k0_pay7 (F := F)) := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024x64) hz3]
  simp only [View.readAt_eq_ld, harg3.read_unread, harg4.read_unread, harg5.read_unread, harg7.read_unread, harg8.read_unread, harg9.read_unread, View.readCov_unit_zero (S := S1x1024x64) _ hz3, View.readCov_unit_zero (S := S1x1024x1) _ hz3, View.ld_unit_zero (S := S1x1024x64) hz3, View.ld_unit_zero (S := S1x1024x1) hz3]

end Cert.KernelIdeal.Pieces

end
-- ==== Proof.States.lean ====
/-
  The scratch (and, at a run's last point, the output block) after each grid point, as the body's payloads of the point's
  three input blocks and of the scratch the point before left: the frame's point-by-point contents, each case's found
  pieces read as values (Pieces), one component at a time.
-/
import proofs.«115019_j87308095193108_2_alg».proof.Proof.Gen.KernelIdeal.Value
import proofs.«115019_j87308095193108_2_alg».proof.Proof.Blocks
import proofs.«115019_j87308095193108_2_alg».proof.Proof.Pieces

noncomputable section

namespace Cert.KernelIdeal.States

open Cert.KernelIdeal Cert.KernelIdeal.Gen Idealize.ShloMosaic Idealize.ShloMosaic.TcCoe Idealize.SL.Sem Idealize.ShloMosaic.ValueIdx
open Cert.Flash Cert.KernelIdeal.Blocks Cert.KernelIdeal.Pieces

variable (m : (ℓ : Loc nD τ sig) → Buf (Elt Ideal) ℓ) (c : Dev nD)

/-- What the point before t left: the running maxima, normalizers and weighted sums. -/
def PM (t : Fin cfg0.N) : FVec Ideal S1x1024x1 .f32 := (outsAt0 m c (t.val - 1) (Nat.lt_of_le_of_lt (Nat.sub_le _ _) t.isLt)).2.1
def PL (t : Fin cfg0.N) : FVec Ideal S1x1024x1 .f32 := (outsAt0 m c (t.val - 1) (Nat.lt_of_le_of_lt (Nat.sub_le _ _) t.isLt)).2.2.1
def PA (t : Fin cfg0.N) : FVec Ideal S1x1024x64 .f32 := (outsAt0 m c (t.val - 1) (Nat.lt_of_le_of_lt (Nat.sub_le _ _) t.isLt)).2.2.2

/-! ## A run's first point -/

theorem first_M_gen (t : Fin cfg0.N) (h0 : t.val % 4 = 0) (h1 : ¬t.val % 4 = 3) (x0 x1 x2 : FVec Ideal S1x1024x64 .bf16) (e0 : iblk m c 0 t = x0) (e1 : iblk m c 1 t = x1) (e2 : iblk m c 2 t = x2) :
    (outsAt0 m c t.val t.isLt).2.1 = k0_pay3 (F := Ideal) (k0_pay10 (F := Ideal) x0 x1 (k0_pay5 (F := Ideal))) := by
  subst e0 e1 e2
  rw [outsAt0_A m c t h0 h1]
  dsimp only
  exact first_m (F := Ideal) ..

theorem first_M (t : Fin cfg0.N) (h0 : t.val % 4 = 0) (h1 : ¬t.val % 4 = 3) :
    (outsAt0 m c t.val t.isLt).2.1 = k0_pay3 (F := Ideal) (k0_pay10 (F := Ideal) (B0 m c t) (B1 m c t) (k0_pay5 (F := Ideal))) :=
  first_M_gen m c t h0 h1 (B0 m c t) (B1 m c t) (B2 m c t) rfl rfl rfl

theorem first_L_gen (t : Fin cfg0.N) (h0 : t.val % 4 = 0) (h1 : ¬t.val % 4 = 3) (x0 x1 x2 : FVec Ideal S1x1024x64 .bf16) (e0 : iblk m c 0 t = x0) (e1 : iblk m c 1 t = x1) (e2 : iblk m c 2 t = x2) :
    (outsAt0 m c t.val t.isLt).2.2.1 = k0_pay1 (F := Ideal) (k0_pay13 (F := Ideal) x0 x1 (k0_pay5 (F := Ideal)) (k0_pay5 (F := Ideal)) (k0_pay6 (F := Ideal))) := by
  subst e0 e1 e2
  rw [outsAt0_A m c t h0 h1]
  dsimp only
  exact first_l (F := Ideal) ..

theorem first_L (t : Fin cfg0.N) (h0 : t.val % 4 = 0) (h1 : ¬t.val % 4 = 3) :
    (outsAt0 m c t.val t.isLt).2.2.1 = k0_pay1 (F := Ideal) (k0_pay13 (F := Ideal) (B0 m c t) (B1 m c t) (k0_pay5 (F := Ideal)) (k0_pay5 (F := Ideal)) (k0_pay6 (F := Ideal))) :=
  first_L_gen m c t h0 h1 (B0 m c t) (B1 m c t) (B2 m c t) rfl rfl rfl

theorem first_A_gen (t : Fin cfg0.N) (h0 : t.val % 4 = 0) (h1 : ¬t.val % 4 = 3) (x0 x1 x2 : FVec Ideal S1x1024x64 .bf16) (e0 : iblk m c 0 t = x0) (e1 : iblk m c 1 t = x1) (e2 : iblk m c 2 t = x2) :
    (outsAt0 m c t.val t.isLt).2.2.2 = k0_pay2 (F := Ideal) (k0_pay8 (F := Ideal) x2) (k0_pay11 (F := Ideal) x0 x1 (k0_pay5 (F := Ideal)) (k0_pay5 (F := Ideal))) (k0_pay12 (F := Ideal) x0 x1 (k0_pay5 (F := Ideal))) (k0_pay7 (F := Ideal)) := by
  subst e0 e1 e2
  rw [outsAt0_A m c t h0 h1]
  dsimp only
  exact first_a (F := Ideal) ..

theorem first_A (t : Fin cfg0.N) (h0 : t.val % 4 = 0) (h1 : ¬t.val % 4 = 3) :
    (outsAt0 m c t.val t.isLt).2.2.2 = k0_pay2 (F := Ideal) (k0_pay8 (F := Ideal) (B2 m c t)) (k0_pay11 (F := Ideal) (B0 m c t) (B1 m c t) (k0_pay5 (F := Ideal)) (k0_pay5 (F := Ideal))) (k0_pay12 (F := Ideal) (B0 m c t) (B1 m c t) (k0_pay5 (F := Ideal))) (k0_pay7 (F := Ideal)) :=
  first_A_gen m c t h0 h1 (B0 m c t) (B1 m c t) (B2 m c t) rfl rfl rfl

/-! ## A middle point -/

theorem mid_M_gen (t : Fin cfg0.N) (h0 : ¬t.val % 4 = 0) (h1 : ¬t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (outsAt0 m c t.val t.isLt).2.1 = k0_pay3 (F := Ideal) (k0_pay10 (F := Ideal) x0 x1 pm) := by
  subst e0 e1 e2
  subst ep0 ep1 ep2
  rw [outsAt0_B m c t h0 h1]
  dsimp only
  exact mid_m (F := Ideal) ..

theorem mid_M (t : Fin cfg0.N) (h0 : ¬t.val % 4 = 0) (h1 : ¬t.val % 4 = 3) :
    (outsAt0 m c t.val t.isLt).2.1 = k0_pay3 (F := Ideal) (k0_pay10 (F := Ideal) (B0 m c t) (B1 m c t) (PM m c t)) :=
  mid_M_gen m c t h0 h1 (B0 m c t) (B1 m c t) (B2 m c t) rfl rfl rfl (PM m c t) (PL m c t) (PA m c t) rfl rfl rfl

theorem mid_L_gen (t : Fin cfg0.N) (h0 : ¬t.val % 4 = 0) (h1 : ¬t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (outsAt0 m c t.val t.isLt).2.2.1 = k0_pay1 (F := Ideal) (k0_pay13 (F := Ideal) x0 x1 pm pm pl) := by
  subst e0 e1 e2
  subst ep0 ep1 ep2
  rw [outsAt0_B m c t h0 h1]
  dsimp only
  exact mid_l (F := Ideal) ..

theorem mid_L (t : Fin cfg0.N) (h0 : ¬t.val % 4 = 0) (h1 : ¬t.val % 4 = 3) :
    (outsAt0 m c t.val t.isLt).2.2.1 = k0_pay1 (F := Ideal) (k0_pay13 (F := Ideal) (B0 m c t) (B1 m c t) (PM m c t) (PM m c t) (PL m c t)) :=
  mid_L_gen m c t h0 h1 (B0 m c t) (B1 m c t) (B2 m c t) rfl rfl rfl (PM m c t) (PL m c t) (PA m c t) rfl rfl rfl

theorem mid_A_gen (t : Fin cfg0.N) (h0 : ¬t.val % 4 = 0) (h1 : ¬t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (outsAt0 m c t.val t.isLt).2.2.2 = k0_pay2 (F := Ideal) (k0_pay8 (F := Ideal) x2) (k0_pay11 (F := Ideal) x0 x1 pm pm) (k0_pay12 (F := Ideal) x0 x1 pm) pa := by
  subst e0 e1 e2
  subst ep0 ep1 ep2
  rw [outsAt0_B m c t h0 h1]
  dsimp only
  exact mid_a (F := Ideal) ..

theorem mid_A (t : Fin cfg0.N) (h0 : ¬t.val % 4 = 0) (h1 : ¬t.val % 4 = 3) :
    (outsAt0 m c t.val t.isLt).2.2.2 = k0_pay2 (F := Ideal) (k0_pay8 (F := Ideal) (B2 m c t)) (k0_pay11 (F := Ideal) (B0 m c t) (B1 m c t) (PM m c t) (PM m c t)) (k0_pay12 (F := Ideal) (B0 m c t) (B1 m c t) (PM m c t)) (PA m c t) :=
  mid_A_gen m c t h0 h1 (B0 m c t) (B1 m c t) (B2 m c t) rfl rfl rfl (PM m c t) (PL m c t) (PA m c t) rfl rfl rfl

/-! ## A run's last point -/

theorem last_M_gen (t : Fin cfg0.N) (h0 : ¬t.val % 4 = 0) (h1 : t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (outsAt0 m c t.val t.isLt).2.1 = k0_pay3 (F := Ideal) (k0_pay10 (F := Ideal) x0 x1 pm) := by
  subst e0 e1 e2
  subst ep0 ep1 ep2
  rw [outsAt0_C m c t h0 h1]
  dsimp only
  exact last_m (F := Ideal) ..

theorem last_M (t : Fin cfg0.N) (h0 : ¬t.val % 4 = 0) (h1 : t.val % 4 = 3) :
    (outsAt0 m c t.val t.isLt).2.1 = k0_pay3 (F := Ideal) (k0_pay10 (F := Ideal) (B0 m c t) (B1 m c t) (PM m c t)) :=
  last_M_gen m c t h0 h1 (B0 m c t) (B1 m c t) (B2 m c t) rfl rfl rfl (PM m c t) (PL m c t) (PA m c t) rfl rfl rfl

theorem last_L_gen (t : Fin cfg0.N) (h0 : ¬t.val % 4 = 0) (h1 : t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (outsAt0 m c t.val t.isLt).2.2.1 = k0_pay1 (F := Ideal) (k0_pay13 (F := Ideal) x0 x1 pm pm pl) := by
  subst e0 e1 e2
  subst ep0 ep1 ep2
  rw [outsAt0_C m c t h0 h1]
  dsimp only
  exact last_l (F := Ideal) ..

theorem last_L (t : Fin cfg0.N) (h0 : ¬t.val % 4 = 0) (h1 : t.val % 4 = 3) :
    (outsAt0 m c t.val t.isLt).2.2.1 = k0_pay1 (F := Ideal) (k0_pay13 (F := Ideal) (B0 m c t) (B1 m c t) (PM m c t) (PM m c t) (PL m c t)) :=
  last_L_gen m c t h0 h1 (B0 m c t) (B1 m c t) (B2 m c t) rfl rfl rfl (PM m c t) (PL m c t) (PA m c t) rfl rfl rfl

theorem last_A_gen (t : Fin cfg0.N) (h0 : ¬t.val % 4 = 0) (h1 : t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (outsAt0 m c t.val t.isLt).2.2.2 = k0_pay2 (F := Ideal) (k0_pay8 (F := Ideal) x2) (k0_pay11 (F := Ideal) x0 x1 pm pm) (k0_pay12 (F := Ideal) x0 x1 pm) pa := by
  subst e0 e1 e2
  subst ep0 ep1 ep2
  rw [outsAt0_C m c t h0 h1]
  dsimp only
  exact last_a (F := Ideal) ..

theorem last_A (t : Fin cfg0.N) (h0 : ¬t.val % 4 = 0) (h1 : t.val % 4 = 3) :
    (outsAt0 m c t.val t.isLt).2.2.2 = k0_pay2 (F := Ideal) (k0_pay8 (F := Ideal) (B2 m c t)) (k0_pay11 (F := Ideal) (B0 m c t) (B1 m c t) (PM m c t) (PM m c t)) (k0_pay12 (F := Ideal) (B0 m c t) (B1 m c t) (PM m c t)) (PA m c t) :=
  last_A_gen m c t h0 h1 (B0 m c t) (B1 m c t) (B2 m c t) rfl rfl rfl (PM m c t) (PL m c t) (PA m c t) rfl rfl rfl

/-- What a run's last point writes back: the quotient of the weighted sums by the normalizers it has just stored. -/
theorem last_flushed_gen (t : Fin cfg0.N) (h0 : ¬t.val % 4 = 0) (h1 : t.val % 4 = 3) (x0 x1 x2 : FVec Ideal S1x1024x64 .bf16) (e0 : iblk m c 0 t = x0) (e1 : iblk m c 1 t = x1) (e2 : iblk m c 2 t = x2) (pm pl : FVec Ideal S1x1024x1 .f32) (pa : FVec Ideal S1x1024x64 .f32) (ep0 : (outsAt0 m c (t.val - 1) (Nat.lt_of_le_of_lt (Nat.sub_le _ _) t.isLt)).2.1 = pm) (ep1 : (outsAt0 m c (t.val - 1) (Nat.lt_of_le_of_lt (Nat.sub_le _ _) t.isLt)).2.2.1 = pl) (ep2 : (outsAt0 m c (t.val - 1) (Nat.lt_of_le_of_lt (Nat.sub_le _ _) t.isLt)).2.2.2 = pa) :
    (dats m 0 c).flushed 3 t = (cfg0.win 3).cut (grid0.coords t) (k0_pay4 (F := Ideal) (k0_pay2 (F := Ideal) (k0_pay8 (F := Ideal) x2) (k0_pay11 (F := Ideal) x0 x1 pm pm) (k0_pay12 (F := Ideal) x0 x1 pm) pa) (k0_pay1 (F := Ideal) (k0_pay13 (F := Ideal) x0 x1 pm pm pl))) := by
  subst e0 e1 e2
  subst ep0 ep1 ep2
  rw [Cert.KernelIdeal.Value.flushed3_C m c t h0 h1]
  exact congrArg ((cfg0.win 3).cut (grid0.coords t)) (last_out (F := Ideal) ..)

theorem last_flushed (t : Fin cfg0.N) (h0 : ¬t.val % 4 = 0) (h1 : t.val % 4 = 3) :
    (dats m 0 c).flushed 3 t = (cfg0.win 3).cut (grid0.coords t) (k0_pay4 (F := Ideal) (k0_pay2 (F := Ideal) (k0_pay8 (F := Ideal) (B2 m c t)) (k0_pay11 (F := Ideal) (B0 m c t) (B1 m c t) (PM m c t) (PM m c t)) (k0_pay12 (F := Ideal) (B0 m c t) (B1 m c t) (PM m c t)) (PA m c t)) (k0_pay1 (F := Ideal) (k0_pay13 (F := Ideal) (B0 m c t) (B1 m c t) (PM m c t) (PM m c t) (PL m c t)))) :=
  last_flushed_gen m c t h0 h1 (B0 m c t) (B1 m c t) (B2 m c t) rfl rfl rfl (PM m c t) (PL m c t) (PA m c t) rfl rfl rfl

end Cert.KernelIdeal.States

end
-- ==== Proof.LibRow3.lean ====
/-
  Rows of a rank-3 array [a, b, d], read at an index, at the ideal (extended-real) values.

  General lemmas, independent of any program:
  * a kernel's maximum and sum over the LAST axis of a rank-3 array, at (p, q): the fold of max from the accumulator's value,
    and the plain sum, over the entries (p, q, k) of that row;
  * the keepdims column forms: an [a, b] array cast to [a, b, 1] reads (p, q); a column [a, b, 1] broadcast over the last
    axis of [a, b, d] reads (p, q, 0) at every (p, q, c).
-/
import Idealize.ShloMosaic.PureOps.Ideal.Laws
import Idealize.ShloMosaic.Lib.ValueIdx
import Idealize.ShloMosaic.Lib.Pipeline.Value

noncomputable section

namespace Cert.Row3

open Idealize.ShloMosaic Idealize.ShloMosaic.ValueIdx

variable {φ : FTy}

/-- The reduced index (p, q) with the last coordinate k put back is (p, q, k). -/
theorem lift3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-- A kernel's maximum over the last axis, at (p, q): the fold of max over that row. -/
theorem kernel_rowMax3 {a b d : ℕ} (src : FVec Ideal ⟨3, ![a, b, d]⟩ φ) (acc : BitVec φ.bits)
    (h : (⟨3, ![a, b, d]⟩ : Shape).Reduces [2] (⟨2, ![a, b]⟩ : Shape)) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin d)).fold max (Ideal.ofBits φ acc) (fun k => src (ix3 p q k)) := by
  rw [Ideal.multiReduction_maximumf_single]
  have hf : (src ∘ h.lift (ix2 p q)) = fun k : Fin d => src (ix3 p q k) := funext fun k => congrArg src (lift3 h p q k)
  exact congrArg (fun f => Finset.fold max (Ideal.ofBits φ acc) f (Finset.univ : Finset (Fin d))) hf

/-- A kernel's sum over the last axis, at (p, q): the sum over that row. -/
theorem kernel_rowSum3 {a b d : ℕ} (src : FVec Ideal ⟨3, ![a, b, d]⟩ φ) (acc : BitVec φ.bits)
    (h : (⟨3, ![a, b, d]⟩ : Shape).Reduces [2] (⟨2, ![a, b]⟩ : Shape)) (hφ : FKind.Formats φ)
    (hacc : acc = FKind.add.neutral φ hφ) (p : Fin a) (q : Fin b) :
    multiReduction .add [2] ⟨2, ![a, b]⟩ src acc h hφ hacc (ix2 p q) = ∑ k : Fin d, src (ix3 p q k) := by
  rw [Ideal.multiReduction_add_single]
  exact Finset.sum_congr rfl fun k _ => congrArg src (lift3 h p q k)

variable {α : Type}

/-- An [a, b] array cast to [a, b, 1] reads, at (p, q, u), the array at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A column [a, b, 1] broadcast over the last axis of [a, b, d] reads, at (p, q, c), the column at (p, q, 0). -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (c : Fin d) :
    broadcastTo ⟨3, ![a, b, d]⟩ v h (ix3 p q c) = v (ix3 p q (0 : Fin 1)) := by
  refine broadcastTo_apply v h (ix3 p q c) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.Row3

end
-- ==== Proof.Payload.lean ====
/-
  What one grid point's body computes, read at an index, at the ideal (extended-real) values.

  With q, k, v the point's three input blocks [1, 1024, 64] and (m, l, acc) the carried scratch as the point finds it:
  * the score tile at (row r, key k) is the sum over the 64 features of (q[r, ·] * 1/8) * k[k, ·];
  * the new running maximum, normalizer and weighted sum at row r are the running-softmax step of the row's 1024 scores
    (and, for the weighted sum's column c, the 1024 values v[·, c]) on (m[r], l[r], acc[r, c]);
  * the closing quotient at (r, c) is acc[r, c] / l[r].
  Changes of float format are the identity at these values.
-/
import proofs.«115019_j87308095193108_2_alg».proof.Proof.Gen.KernelIdeal.Skeleton
import proofs.«115019_j87308095193108_2_alg».proof.Proof.LibRow3
import proofs.«115019_j87308095193108_2_alg».proof.Proof.Softmax

noncomputable section

namespace Cert.KernelIdeal.Pay

open Cert.KernelIdeal Cert.KernelIdeal.Gen Idealize.ShloMosaic Idealize.ShloMosaic.ValueIdx Cert.Flash Cert.Row3

/-- The score of row r against key k of the tile: the scaled query row against the key row. -/
def scoreT (x0 x1 : FVec Ideal S1x1024x64 .bf16) (r k : Fin 1024) : EReal :=
  ∑ d : Fin 64, (x0 (ix3 (0 : Fin 1) r d) * Ideal.ofBits .f32 0x3E000000#32) * x1 (ix3 (0 : Fin 1) k d)

theorem lhs_qk_0 (i : S1x1024x1024.Idx) (q : dot_S1x1024x64_S1x1024x64_S1x1024x1024_2_2_1_1_0_0.contr.Idx) :
    (dot_S1x1024x64_S1x1024x64_S1x1024x1024_2_2_1_1_0_0.lhsIdx i q 0).val = (i 0).val := by
  unfold DotDims.lhsIdx
  rw [dif_pos (show (0 : Fin S1x1024x64.rank) ∈ dot_S1x1024x64_S1x1024x64_S1x1024x1024_2_2_1_1_0_0.lhsBatch by decide)]
  rfl
theorem lhs_qk_1 (i : S1x1024x1024.Idx) (q : dot_S1x1024x64_S1x1024x64_S1x1024x1024_2_2_1_1_0_0.contr.Idx) :
    (dot_S1x1024x64_S1x1024x64_S1x1024x1024_2_2_1_1_0_0.lhsIdx i q 1).val = (i 1).val := by
  unfold DotDims.lhsIdx
  rw [dif_neg (show ¬(1 : Fin S1x1024x64.rank) ∈ dot_S1x1024x64_S1x1024x64_S1x1024x1024_2_2_1_1_0_0.lhsBatch by decide), dif_pos (show (1 : Fin S1x1024x64.rank) ∈ dot_S1x1024x64_S1x1024x64_S1x1024x1024_2_2_1_1_0_0.lhsNonContracting by decide)]
  rfl
theorem rhs_qk_0 (i : S1x1024x1024.Idx) (q : dot_S1x1024x64_S1x1024x64_S1x1024x1024_2_2_1_1_0_0.contr.Idx) :
    (dot_S1x1024x64_S1x1024x64_S1x1024x1024_2_2_1_1_0_0.rhsIdx i q 0).val = (i 0).val := by
  unfold DotDims.rhsIdx
  rw [dif_pos (show (0 : Fin S1x1024x64.rank) ∈ dot_S1x1024x64_S1x1024x64_S1x1024x1024_2_2_1_1_0_0.rhsBatch by decide)]
  rfl
theorem rhs_qk_1 (i : S1x1024x1024.Idx) (q : dot_S1x1024x64_S1x1024x64_S1x1024x1024_2_2_1_1_0_0.contr.Idx) :
    (dot_S1x1024x64_S1x1024x64_S1x1024x1024_2_2_1_1_0_0.rhsIdx i q 1).val = (i 2).val := by
  unfold DotDims.rhsIdx
  rw [dif_neg (show ¬(1 : Fin S1x1024x64.rank) ∈ dot_S1x1024x64_S1x1024x64_S1x1024x1024_2_2_1_1_0_0.rhsBatch by decide), dif_pos (show (1 : Fin S1x1024x64.rank) ∈ dot_S1x1024x64_S1x1024x64_S1x1024x1024_2_2_1_1_0_0.rhsNonContracting by decide)]
  rfl

/-- The first matrix product, into a zero accumulator, at (r, k): the sum over the contracted feature axis. -/
theorem qk_apply (l r : FVec Ideal S1x1024x64 .bf16) (p k : Fin 1024) :
    matmul dot_S1x1024x64_S1x1024x64_S1x1024x1024_2_2_1_1_0_0 none l r (constant (F := Ideal) S1x1024x1024 .f32 0x00000000#32) (ix3 (0 : Fin 1) p k)
      = ∑ d : Fin 64, l (ix3 (0 : Fin 1) p d) * r (ix3 (0 : Fin 1) k d) := by
  simp only [matmul]
  rw [Ideal.matmul_constant_zero_apply, ← Equiv.sum_comp (contrEquiv1 dot_S1x1024x64_S1x1024x64_S1x1024x1024_2_2_1_1_0_0 64 rfl rfl).symm]
  refine Finset.sum_congr rfl fun d _ => ?_
  have hk := contrEquiv1_symm_val dot_S1x1024x64_S1x1024x64_S1x1024x1024_2_2_1_1_0_0 64 rfl rfl d
  have el : dot_S1x1024x64_S1x1024x64_S1x1024x1024_2_2_1_1_0_0.lhsIdx (ix3 (0 : Fin 1) p k) ((contrEquiv1 dot_S1x1024x64_S1x1024x64_S1x1024x1024_2_2_1_1_0_0 64 rfl rfl).symm d) = ix3 (0 : Fin 1) p d := funext fun a => Fin.ext (by
    match a with
    | ⟨0, _⟩ => exact lhs_qk_0 _ _
    | ⟨1, _⟩ => exact lhs_qk_1 _ _
    | ⟨2, _⟩ => exact (dot_S1x1024x64_S1x1024x64_S1x1024x1024_2_2_1_1_0_0.lhsIdx_val_of_single rfl _ _).trans hk)
  have er : dot_S1x1024x64_S1x1024x64_S1x1024x1024_2_2_1_1_0_0.rhsIdx (ix3 (0 : Fin 1) p k) ((contrEquiv1 dot_S1x1024x64_S1x1024x64_S1x1024x1024_2_2_1_1_0_0 64 rfl rfl).symm d) = ix3 (0 : Fin 1) k d := funext fun a => Fin.ext (by
    match a with
    | ⟨0, _⟩ => exact rhs_qk_0 _ _
    | ⟨1, _⟩ => exact rhs_qk_1 _ _
    | ⟨2, _⟩ => exact (dot_S1x1024x64_S1x1024x64_S1x1024x1024_2_2_1_1_0_0.rhsIdx_val_of_single rfl _ _).trans hk)
  rw [el, er]

theorem lhs_pv_0 (i : S1x1024x64.Idx) (q : dot_S1x1024x1024_S1x1024x64_S1x1024x64_2_1_1_2_0_0.contr.Idx) :
    (dot_S1x1024x1024_S1x1024x64_S1x1024x64_2_1_1_2_0_0.lhsIdx i q 0).val = (i 0).val := by
  unfold DotDims.lhsIdx
  rw [dif_pos (show (0 : Fin S1x1024x1024.rank) ∈ dot_S1x1024x1024_S1x1024x64_S1x1024x64_2_1_1_2_0_0.lhsBatch by decide)]
  rfl
theorem lhs_pv_1 (i : S1x1024x64.Idx) (q : dot_S1x1024x1024_S1x1024x64_S1x1024x64_2_1_1_2_0_0.contr.Idx) :
    (dot_S1x1024x1024_S1x1024x64_S1x1024x64_2_1_1_2_0_0.lhsIdx i q 1).val = (i 1).val := by
  unfold DotDims.lhsIdx
  rw [dif_neg (show ¬(1 : Fin S1x1024x1024.rank) ∈ dot_S1x1024x1024_S1x1024x64_S1x1024x64_2_1_1_2_0_0.lhsBatch by decide), dif_pos (show (1 : Fin S1x1024x1024.rank) ∈ dot_S1x1024x1024_S1x1024x64_S1x1024x64_2_1_1_2_0_0.lhsNonContracting by decide)]
  rfl
theorem rhs_pv_0 (i : S1x1024x64.Idx) (q : dot_S1x1024x1024_S1x1024x64_S1x1024x64_2_1_1_2_0_0.contr.Idx) :
    (dot_S1x1024x1024_S1x1024x64_S1x1024x64_2_1_1_2_0_0.rhsIdx i q 0).val = (i 0).val := by
  unfold DotDims.rhsIdx
  rw [dif_pos (show (0 : Fin S1x1024x64.rank) ∈ dot_S1x1024x1024_S1x1024x64_S1x1024x64_2_1_1_2_0_0.rhsBatch by decide)]
  rfl
theorem rhs_pv_2 (i : S1x1024x64.Idx) (q : dot_S1x1024x1024_S1x1024x64_S1x1024x64_2_1_1_2_0_0.contr.Idx) :
    (dot_S1x1024x1024_S1x1024x64_S1x1024x64_2_1_1_2_0_0.rhsIdx i q 2).val = (i 2).val := by
  unfold DotDims.rhsIdx
  rw [dif_neg (show ¬(2 : Fin S1x1024x64.rank) ∈ dot_S1x1024x1024_S1x1024x64_S1x1024x64_2_1_1_2_0_0.rhsBatch by decide), dif_pos (show (2 : Fin S1x1024x64.rank) ∈ dot_S1x1024x1024_S1x1024x64_S1x1024x64_2_1_1_2_0_0.rhsNonContracting by decide)]
  rfl

/-- The second matrix product, into a zero accumulator, at (r, c): the sum over the tile's 1024 keys. -/
theorem pv_apply (l : FVec Ideal S1x1024x1024 .bf16) (r : FVec Ideal S1x1024x64 .bf16) (p : Fin 1024) (c : Fin 64) :
    matmul dot_S1x1024x1024_S1x1024x64_S1x1024x64_2_1_1_2_0_0 none l r (constant (F := Ideal) S1x1024x64 .f32 0x00000000#32) (ix3 (0 : Fin 1) p c)
      = ∑ k : Fin 1024, l (ix3 (0 : Fin 1) p k) * r (ix3 (0 : Fin 1) k c) := by
  simp only [matmul]
  rw [Ideal.matmul_constant_zero_apply, ← Equiv.sum_comp (contrEquiv1 dot_S1x1024x1024_S1x1024x64_S1x1024x64_2_1_1_2_0_0 1024 rfl rfl).symm]
  refine Finset.sum_congr rfl fun k _ => ?_
  have hk := contrEquiv1_symm_val dot_S1x1024x1024_S1x1024x64_S1x1024x64_2_1_1_2_0_0 1024 rfl rfl k
  have el : dot_S1x1024x1024_S1x1024x64_S1x1024x64_2_1_1_2_0_0.lhsIdx (ix3 (0 : Fin 1) p c) ((contrEquiv1 dot_S1x1024x1024_S1x1024x64_S1x1024x64_2_1_1_2_0_0 1024 rfl rfl).symm k) = ix3 (0 : Fin 1) p k := funext fun a => Fin.ext (by
    match a with
    | ⟨0, _⟩ => exact lhs_pv_0 _ _
    | ⟨1, _⟩ => exact lhs_pv_1 _ _
    | ⟨2, _⟩ => exact (dot_S1x1024x1024_S1x1024x64_S1x1024x64_2_1_1_2_0_0.lhsIdx_val_of_single rfl _ _).trans hk)
  have er : dot_S1x1024x1024_S1x1024x64_S1x1024x64_2_1_1_2_0_0.rhsIdx (ix3 (0 : Fin 1) p c) ((contrEquiv1 dot_S1x1024x1024_S1x1024x64_S1x1024x64_2_1_1_2_0_0 1024 rfl rfl).symm k) = ix3 (0 : Fin 1) k c := funext fun a => Fin.ext (by
    match a with
    | ⟨0, _⟩ => exact rhs_pv_0 _ _
    | ⟨1, _⟩ => exact (dot_S1x1024x1024_S1x1024x64_S1x1024x64_2_1_1_2_0_0.rhsIdx_val_of_single rfl _ _).trans hk
    | ⟨2, _⟩ => exact rhs_pv_2 _ _)
  rw [el, er]

/-- The score tile at (r, k). -/
theorem pay9_apply (x0 x1 : FVec Ideal S1x1024x64 .bf16) (r k : Fin 1024) :
    k0_pay9 (F := Ideal) x0 x1 (ix3 (0 : Fin 1) r k) = scoreT x0 x1 r k := by
  unfold k0_pay9
  refine (qk_apply _ _ r k).trans ?_
  unfold scoreT
  refine Finset.sum_congr rfl fun d _ => ?_
  simp only [shapeCast_self]
  rfl

/-- The new running maximum at row r. -/
theorem pay10_apply (x0 x1 : FVec Ideal S1x1024x64 .bf16) (xs0 : FVec Ideal S1x1024x1 .f32) (r : Fin 1024) :
    k0_pay10 (F := Ideal) x0 x1 xs0 (ix3 (0 : Fin 1) r (0 : Fin 1))
      = stepM (xs0 (ix3 (0 : Fin 1) r (0 : Fin 1))) (fun k => scoreT x0 x1 r k) := by
  unfold k0_pay10 stepM
  show max (xs0 (ix3 (0 : Fin 1) r (0 : Fin 1))) (shapeCast S1x1024x1 _ _ (ix3 (0 : Fin 1) r (0 : Fin 1))) = _
  refine congrArg (max _) ?_
  refine (shapeCast_ab_ab1_apply _ _ (0 : Fin 1) r (0 : Fin 1)).trans ?_
  refine (kernel_rowMax3 _ _ _ _ _ (0 : Fin 1) r).trans ?_
  rw [ofBits_neg_inf]
  exact congrArg (fun f => Finset.fold max (⊥ : EReal) f (Finset.univ : Finset (Fin 1024))) (funext fun k => pay9_apply x0 x1 r k)

/-- The rescaling factor of the old sums at row r. -/
theorem pay11_apply (x0 x1 : FVec Ideal S1x1024x64 .bf16) (xs0 xs0' : FVec Ideal S1x1024x1 .f32) (r : Fin 1024) :
    k0_pay11 (F := Ideal) x0 x1 xs0 xs0' (ix3 (0 : Fin 1) r (0 : Fin 1))
      = Ideal.exp (xs0' (ix3 (0 : Fin 1) r (0 : Fin 1)) - stepM (xs0 (ix3 (0 : Fin 1) r (0 : Fin 1))) (fun k => scoreT x0 x1 r k)) := by
  unfold k0_pay11
  show Ideal.exp (xs0' (ix3 (0 : Fin 1) r (0 : Fin 1)) - k0_pay10 (F := Ideal) x0 x1 xs0 (ix3 (0 : Fin 1) r (0 : Fin 1))) = _
  rw [pay10_apply]

/-- The tile's weights at (r, k). -/
theorem pay12_apply (x0 x1 : FVec Ideal S1x1024x64 .bf16) (xs0 : FVec Ideal S1x1024x1 .f32) (r k : Fin 1024) :
    k0_pay12 (F := Ideal) x0 x1 xs0 (ix3 (0 : Fin 1) r k)
      = Ideal.exp (scoreT x0 x1 r k - stepM (xs0 (ix3 (0 : Fin 1) r (0 : Fin 1))) (fun k => scoreT x0 x1 r k)) := by
  unfold k0_pay12
  show Ideal.exp (k0_pay9 (F := Ideal) x0 x1 (ix3 (0 : Fin 1) r k) - broadcastTo S1x1024x1024 (k0_pay10 (F := Ideal) x0 x1 xs0) _ (ix3 (0 : Fin 1) r k)) = _
  rw [pay9_apply]
  refine congrArg (fun z => Ideal.exp (scoreT x0 x1 r k - z)) ?_
  refine (broadcastTo_ab1_abd_apply _ _ (0 : Fin 1) r k).trans ?_
  exact pay10_apply x0 x1 xs0 r

/-- The new running normalizer at row r. -/
theorem pay13_apply (x0 x1 : FVec Ideal S1x1024x64 .bf16) (xs0 xs1 : FVec Ideal S1x1024x1 .f32) (r : Fin 1024) :
    k0_pay13 (F := Ideal) x0 x1 xs0 xs0 xs1 (ix3 (0 : Fin 1) r (0 : Fin 1))
      = stepL (xs0 (ix3 (0 : Fin 1) r (0 : Fin 1))) (xs1 (ix3 (0 : Fin 1) r (0 : Fin 1))) (fun k => scoreT x0 x1 r k) := by
  unfold k0_pay13 stepL
  show k0_pay11 (F := Ideal) x0 x1 xs0 xs0 (ix3 (0 : Fin 1) r (0 : Fin 1)) * xs1 (ix3 (0 : Fin 1) r (0 : Fin 1))
      + shapeCast S1x1024x1 _ _ (ix3 (0 : Fin 1) r (0 : Fin 1)) = _
  rw [pay11_apply]
  refine congrArg₂ (· + ·) rfl ?_
  refine (shapeCast_ab_ab1_apply _ _ (0 : Fin 1) r (0 : Fin 1)).trans ?_
  refine (kernel_rowSum3 _ _ _ _ _ (0 : Fin 1) r).trans ?_
  exact Finset.sum_congr rfl fun k _ => pay12_apply x0 x1 xs0 r k

/-- The new running weighted sum at (r, c). -/
theorem pay2_apply (x0 x1 x2 : FVec Ideal S1x1024x64 .bf16) (xs0 : FVec Ideal S1x1024x1 .f32) (xs2 : FVec Ideal S1x1024x64 .f32)
    (r : Fin 1024) (c : Fin 64) :
    k0_pay2 (F := Ideal) (k0_pay8 (F := Ideal) x2) (k0_pay11 (F := Ideal) x0 x1 xs0 xs0) (k0_pay12 (F := Ideal) x0 x1 xs0) xs2 (ix3 (0 : Fin 1) r c)
      = stepA (xs0 (ix3 (0 : Fin 1) r (0 : Fin 1))) (xs2 (ix3 (0 : Fin 1) r c)) (fun k => scoreT x0 x1 r k)
          (fun k => x2 (ix3 (0 : Fin 1) k c)) := by
  unfold k0_pay2 stepA
  simp only [shapeCast_self]
  show broadcastTo S1x1024x64 (k0_pay11 (F := Ideal) x0 x1 xs0 xs0) _ (ix3 (0 : Fin 1) r c) * xs2 (ix3 (0 : Fin 1) r c)
      + matmul dot_S1x1024x1024_S1x1024x64_S1x1024x64_2_1_1_2_0_0 none _ _ (constant (F := Ideal) S1x1024x64 .f32 0x00000000#32) (ix3 (0 : Fin 1) r c) = _
  refine congrArg₂ (· + ·) (congrArg (· * xs2 (ix3 (0 : Fin 1) r c)) ?_) ?_
  · refine (broadcastTo_ab1_abd_apply _ _ (0 : Fin 1) r c).trans ?_
    exact pay11_apply x0 x1 xs0 xs0 r
  · refine (pv_apply _ _ r c).trans ?_
    refine Finset.sum_congr rfl fun k _ => ?_
    refine congrArg₂ (· * ·) ?_ ?_
    · exact pay12_apply x0 x1 xs0 r k
    · unfold k0_pay8; simp only [shapeCast_self]

/-- The closing quotient at (r, c). -/
theorem pay4_apply (a : FVec Ideal S1x1024x64 .f32) (l : FVec Ideal S1x1024x1 .f32) (r : Fin 1024) (c : Fin 64) :
    k0_pay4 (F := Ideal) a l (ix3 (0 : Fin 1) r c) = Ideal.div (a (ix3 (0 : Fin 1) r c)) (l (ix3 (0 : Fin 1) r (0 : Fin 1))) := by
  unfold k0_pay4
  show Ideal.div (a (ix3 (0 : Fin 1) r c)) (broadcastTo S1x1024x64 l _ (ix3 (0 : Fin 1) r c)) = _
  exact congrArg (Ideal.div _) (broadcastTo_ab1_abd_apply _ _ (0 : Fin 1) r c)

/-- The three reset values: minus infinity, zero, zero. -/
theorem pay5_apply (j : S1x1024x1.Idx) : k0_pay5 (F := Ideal) j = (⊥ : EReal) := by
  unfold k0_pay5; simp only [shapeCast_self]; exact ofBits_neg_inf
theorem pay6_apply (j : S1x1024x1.Idx) : k0_pay6 (F := Ideal) j = (0 : EReal) := by
  unfold k0_pay6; simp only [shapeCast_self]; exact Ideal.ofBits_zero_f32
theorem pay7_apply (j : S1x1024x64.Idx) : k0_pay7 (F := Ideal) j = (0 : EReal) := by
  unfold k0_pay7; simp only [shapeCast_self]; exact Ideal.ofBits_zero_f32

theorem pay1_eq (v : FVec Ideal S1x1024x1 .f32) : k0_pay1 (F := Ideal) v = v := by unfold k0_pay1; exact shapeCast_self _ _
theorem pay3_eq (v : FVec Ideal S1x1024x1 .f32) : k0_pay3 (F := Ideal) v = v := by unfold k0_pay3; exact shapeCast_self _ _

end Cert.KernelIdeal.Pay

end
-- ==== Proof.RowStep.lean ====
/-
  One grid point on one query row, with real numbers in the blocks.

  If the query, key and value blocks hold real numbers, a row's score against a key is the real number
    sigma r k = sum over the 64 features of (q[r, ·] / 8) * k[k, ·],
  and the state (m, l, a) the point leaves on row r is the running-softmax step of that row's scores and the tile's
  values. ROW INVARIANT after the tiles 0 … j of a run: for some real shift mu,
    m[r] = mu,   l[r] = sum over the keys met of exp (score - mu),   a[r, c] = sum of exp (score - mu) * value[·, c].
  The first tile establishes it from the reset values (-infinity, 0, 0), every later tile carries it one tile on
  (the shift law, Softmax), and under it the last tile's quotient a / l is the softmax-weighted mean of the values.
-/
import proofs.«115019_j87308095193108_2_alg».proof.Proof.Payload

noncomputable section

namespace Cert.KernelIdeal.RowStep

open Cert.KernelIdeal Cert.KernelIdeal.Gen Cert.KernelIdeal.Pay Idealize.ShloMosaic Idealize.ShloMosaic.ValueIdx Cert.Flash

/-- A row's real score against a key of the tile. -/
def sigma (q kk : Fin 1024 → Fin 64 → ℝ) (r k : Fin 1024) : ℝ := ∑ d : Fin 64, (q r d * (1 / 8)) * kk k d

theorem scoreT_real (x0 x1 : FVec Ideal S1x1024x64 .bf16) (q kk : Fin 1024 → Fin 64 → ℝ)
    (hx0 : ∀ r d, x0 (ix3 (0 : Fin 1) r d) = ((q r d : ℝ) : EReal)) (hx1 : ∀ k d, x1 (ix3 (0 : Fin 1) k d) = ((kk k d : ℝ) : EReal))
    (r k : Fin 1024) : scoreT x0 x1 r k = ((sigma q kk r k : ℝ) : EReal) := by
  unfold scoreT sigma
  simp only [hx0, hx1, ofBits_eighth, ← EReal.coe_mul]
  exact coe_sum _ _

/-- The row invariant after the tiles 0 … j (s i r k: row r's score against key k of tile i; v i k c: that key's value in
    column c). -/
def RowInv (s : ℕ → Fin 1024 → Fin 1024 → ℝ) (v : ℕ → Fin 1024 → Fin 64 → ℝ) (j : ℕ)
    (M L : FVec Ideal S1x1024x1 .f32) (A : FVec Ideal S1x1024x64 .f32) : Prop :=
  ∀ r : Fin 1024, ∃ μ : ℝ, M (ix3 (0 : Fin 1) r (0 : Fin 1)) = ((μ : ℝ) : EReal)
    ∧ L (ix3 (0 : Fin 1) r (0 : Fin 1)) = ((part (fun i k => s i r k) (fun _ _ => 1) (j + 1) μ : ℝ) : EReal)
    ∧ ∀ c : Fin 64, A (ix3 (0 : Fin 1) r c) = ((part (fun i k => s i r k) (fun i k => v i k c) (j + 1) μ : ℝ) : EReal)

/-- The first tile of a run. -/
theorem rowInv_first (x0 x1 x2 : FVec Ideal S1x1024x64 .bf16) (q kk vv : Fin 1024 → Fin 64 → ℝ)
    (hx0 : ∀ r d, x0 (ix3 (0 : Fin 1) r d) = ((q r d : ℝ) : EReal)) (hx1 : ∀ k d, x1 (ix3 (0 : Fin 1) k d) = ((kk k d : ℝ) : EReal))
    (hx2 : ∀ k c, x2 (ix3 (0 : Fin 1) k c) = ((vv k c : ℝ) : EReal))
    (s : ℕ → Fin 1024 → Fin 1024 → ℝ) (v : ℕ → Fin 1024 → Fin 64 → ℝ)
    (hs : ∀ r k, s 0 r k = sigma q kk r k) (hv : ∀ k c, v 0 k c = vv k c) :
    RowInv s v 0 (k0_pay3 (F := Ideal) (k0_pay10 (F := Ideal) x0 x1 (k0_pay5 (F := Ideal))))
      (k0_pay1 (F := Ideal) (k0_pay13 (F := Ideal) x0 x1 (k0_pay5 (F := Ideal)) (k0_pay5 (F := Ideal)) (k0_pay6 (F := Ideal))))
      (k0_pay2 (F := Ideal) (k0_pay8 (F := Ideal) x2) (k0_pay11 (F := Ideal) x0 x1 (k0_pay5 (F := Ideal)) (k0_pay5 (F := Ideal)))
        (k0_pay12 (F := Ideal) x0 x1 (k0_pay5 (F := Ideal))) (k0_pay7 (F := Ideal))) := by
  intro r
  have hsc : (fun k => scoreT x0 x1 r k) = fun k => ((sigma q kk r k : ℝ) : EReal) := funext fun k => scoreT_real x0 x1 q kk hx0 hx1 r k
  obtain ⟨μ', hM, hL, hA⟩ := step_init (K := 1024) (by norm_num) (fun k => sigma q kk r k)
  refine ⟨μ', ?_, ?_, fun c => ?_⟩
  · rw [pay3_eq, pay10_apply, pay5_apply, hsc]; exact hM
  · rw [pay1_eq, pay13_apply, pay5_apply, pay6_apply, hsc, hL]
    refine congrArg (fun z : ℝ => ((z : ℝ) : EReal)) ?_
    rw [← part_succ (fun i k => s i r k) (fun _ _ => 1) 0 0 μ', part_zero, mul_zero, zero_add]
    exact Finset.sum_congr rfl fun k _ => by rw [hs]
  · rw [pay2_apply, pay5_apply, pay7_apply, hsc]
    have hvv : (fun k => x2 (ix3 (0 : Fin 1) k c)) = fun k => ((vv k c : ℝ) : EReal) := funext fun k => hx2 k c
    rw [hvv, hA (fun k => vv k c)]
    refine congrArg (fun z : ℝ => ((z : ℝ) : EReal)) ?_
    rw [← part_succ (fun i k => s i r k) (fun i k => v i k c) 0 0 μ', part_zero, mul_zero, zero_add]
    exact Finset.sum_congr rfl fun k _ => by rw [hs, hv]

/-- Every later tile of the run. -/
theorem rowInv_step (x0 x1 x2 : FVec Ideal S1x1024x64 .bf16) (q kk vv : Fin 1024 → Fin 64 → ℝ)
    (hx0 : ∀ r d, x0 (ix3 (0 : Fin 1) r d) = ((q r d : ℝ) : EReal)) (hx1 : ∀ k d, x1 (ix3 (0 : Fin 1) k d) = ((kk k d : ℝ) : EReal))
    (hx2 : ∀ k c, x2 (ix3 (0 : Fin 1) k c) = ((vv k c : ℝ) : EReal))
    (s : ℕ → Fin 1024 → Fin 1024 → ℝ) (v : ℕ → Fin 1024 → Fin 64 → ℝ) (j : ℕ)
    (hs : ∀ r k, s (j + 1) r k = sigma q kk r k) (hv : ∀ k c, v (j + 1) k c = vv k c)
    (xs0 xs1 : FVec Ideal S1x1024x1 .f32) (xs2 : FVec Ideal S1x1024x64 .f32) (h : RowInv s v j xs0 xs1 xs2) :
    RowInv s v (j + 1) (k0_pay3 (F := Ideal) (k0_pay10 (F := Ideal) x0 x1 xs0))
      (k0_pay1 (F := Ideal) (k0_pay13 (F := Ideal) x0 x1 xs0 xs0 xs1))
      (k0_pay2 (F := Ideal) (k0_pay8 (F := Ideal) x2) (k0_pay11 (F := Ideal) x0 x1 xs0 xs0) (k0_pay12 (F := Ideal) x0 x1 xs0) xs2) := by
  intro r
  obtain ⟨μ, h0, h1, h2⟩ := h r
  have hsc : (fun k => scoreT x0 x1 r k) = fun k => ((sigma q kk r k : ℝ) : EReal) := funext fun k => scoreT_real x0 x1 q kk hx0 hx1 r k
  obtain ⟨μ', hM, hL, hA⟩ := step_real (K := 1024) (by norm_num) (fun k => sigma q kk r k) μ
  refine ⟨μ', ?_, ?_, fun c => ?_⟩
  · rw [pay3_eq, pay10_apply, h0, hsc]; exact hM
  · rw [pay1_eq, pay13_apply, h0, h1, hsc, hL]
    refine congrArg (fun z : ℝ => ((z : ℝ) : EReal)) ?_
    rw [← part_succ (fun i k => s i r k) (fun _ _ => 1) (j + 1) μ μ']
    refine congrArg (fun z : ℝ => Real.exp (μ - μ') * part (fun i k => s i r k) (fun _ _ => 1) (j + 1) μ + z) ?_
    exact Finset.sum_congr rfl fun k _ => by rw [hs]
  · rw [pay2_apply, h0, h2 c, hsc]
    have hvv : (fun k => x2 (ix3 (0 : Fin 1) k c)) = fun k => ((vv k c : ℝ) : EReal) := funext fun k => hx2 k c
    rw [hvv, hA _ (fun k => vv k c)]
    refine congrArg (fun z : ℝ => ((z : ℝ) : EReal)) ?_
    rw [← part_succ (fun i k => s i r k) (fun i k => v i k c) (j + 1) μ μ']
    refine congrArg (fun z : ℝ => Real.exp (μ - μ') * part (fun i k => s i r k) (fun i k => v i k c) (j + 1) μ + z) ?_
    exact Finset.sum_congr rfl fun k _ => by rw [hs, hv]

/-- Under the invariant the closing quotient is the mean of the values weighted by exp of the scores: the shift cancels. -/
theorem rowInv_quot (s : ℕ → Fin 1024 → Fin 1024 → ℝ) (v : ℕ → Fin 1024 → Fin 64 → ℝ) (j : ℕ)
    (M L : FVec Ideal S1x1024x1 .f32) (A : FVec Ideal S1x1024x64 .f32) (h : RowInv s v j M L A) (r : Fin 1024) (c : Fin 64) :
    k0_pay4 (F := Ideal) A L (ix3 (0 : Fin 1) r c)
      = ((part (fun i k => s i r k) (fun i k => v i k c) (j + 1) 0 / part (fun i k => s i r k) (fun _ _ => 1) (j + 1) 0 : ℝ) : EReal) := by
  obtain ⟨μ, -, h1, h2⟩ := h r
  rw [pay4_apply, h1, h2 c, div_real _ _ (part_one_pos (by norm_num) _ _ (Nat.succ_pos j) μ).ne',
    part_div (by norm_num) _ _ _ (Nat.succ_pos j) μ]

end Cert.KernelIdeal.RowStep

end
-- ==== Proof.KernelValue.lean ====
/-
  What the kernel's result array holds after its run: attention, index by index.

  The grid runs 64 runs of four points (one query tile against its four key tiles). By induction on the point the scratch
  after point n satisfies the row invariant of its run for the tiles 0 … n % 4 (the first point of a run establishes it from
  the reset values, each later point carries it on: RowStep), so at a run's last point the output block written back is, at
  every (row, column), the softmax-weighted mean of the values over all 4096 keys. Those 64 blocks tile the result
  array: the block of batch b and query tile u is written at point 16 b + 4 u + 3.
-/
import proofs.«115019_j87308095193108_2_alg».proof.Proof.States
import proofs.«115019_j87308095193108_2_alg».proof.Proof.RowStep

noncomputable section

namespace Cert.KernelIdeal.KValue

open Cert.KernelIdeal Cert.KernelIdeal.Gen Idealize.ShloMosaic Idealize.ShloMosaic.TcCoe Idealize.SL.Sem Idealize.ShloMosaic.ValueIdx
open Cert.Flash Cert.KernelIdeal.Blocks Cert.KernelIdeal.States Cert.KernelIdeal.RowStep
open Idealize.ShloMosaic.Pipeline (Dat)

variable (m : (ℓ : Loc nD τ sig) → Buf (Elt Ideal) ℓ)
variable (qr kr vr : Arr) (c : Dev nD)

/-- Run g's scores and values, tile by tile: row r of its query tile against key k of key tile i. -/
def sRun (g : ℕ) : ℕ → Fin 1024 → Fin 1024 → ℝ := fun i r k => sc qr kr (bG g) (qG g r) i k
def vRun (g : ℕ) : ℕ → Fin 1024 → Fin 64 → ℝ := fun i k d => va vr (bG g) d i k

/-- The scratch after point n satisfies its run's row invariant for the tiles 0 … n % 4. -/
def StateInv (n : ℕ) (hn : n < cfg0.N) : Prop :=
  RowInv (sRun qr kr (n / 4)) (vRun vr (n / 4)) (n % 4) (outsAt0 m c n hn).2.1 (outsAt0 m c n hn).2.2.1 (outsAt0 m c n hn).2.2.2

variable (hQ : ∀ i, m ((c : Thread nD τ).loc main_arg0) i = ((qr i : ℝ) : EReal))
  (hK : ∀ i, m ((c : Thread nD τ).loc main_arg1) i = ((kr i : ℝ) : EReal))
  (hV : ∀ i, m ((c : Thread nD τ).loc main_arg2) i = ((vr i : ℝ) : EReal))

include hQ in
theorem b0_real (t : Fin cfg0.N) (r : Fin 1024) (d : Fin 64) :
    B0 m c t (ix3 (0 : Fin 1) r d) = ((qr (ix3 (bG (t.val / 4)) (qG (t.val / 4) r) d) : ℝ) : EReal) := (B0_apply m c t r d).trans (hQ _)
include hK in
theorem b1_real (t : Fin cfg0.N) (j : ℕ) (hj : t.val % 4 = j) (k : Fin 1024) (d : Fin 64) :
    B1 m c t (ix3 (0 : Fin 1) k d) = ((kr (ix3 (bG (t.val / 4)) (keyOf j k) d) : ℝ) : EReal) := hj ▸ (B1_apply m c t k d).trans (hK _)
include hV in
theorem b2_real (t : Fin cfg0.N) (j : ℕ) (hj : t.val % 4 = j) (k : Fin 1024) (d : Fin 64) :
    B2 m c t (ix3 (0 : Fin 1) k d) = ((vr (ix3 (bG (t.val / 4)) (keyOf j k) d) : ℝ) : EReal) := hj ▸ (B2_apply m c t k d).trans (hV _)

include hQ hK hV

/-- The first point of a run. -/
theorem inv_first (t : Fin cfg0.N) (h0 : t.val % 4 = 0) : StateInv m qr kr vr c t.val t.isLt := by
  have h1 : ¬t.val % 4 = 3 := by omega
  unfold StateInv
  rw [first_M m c t h0 h1, first_L m c t h0 h1, first_A m c t h0 h1, h0]
  exact rowInv_first (B0 m c t) (B1 m c t) (B2 m c t) _ _ _ (b0_real m qr c hQ t) (b1_real m kr c hK t 0 h0) (b2_real m vr c hV t 0 h0)
    (sRun qr kr (t.val / 4)) (vRun vr (t.val / 4)) (fun r k => rfl) (fun k d => rfl)

/-- Every later point of a run, from the point before. -/
theorem inv_next (t : Fin cfg0.N) (h0 : ¬t.val % 4 = 0)
    (ih : StateInv m qr kr vr c (t.val - 1) (Nat.lt_of_le_of_lt (Nat.sub_le _ _) t.isLt)) : StateInv m qr kr vr c t.val t.isLt := by
  have hg : (t.val - 1) / 4 = t.val / 4 := by omega
  have hj : t.val % 4 = (t.val - 1) % 4 + 1 := by omega
  unfold StateInv at ih ⊢
  rw [hg] at ih
  have ih' : RowInv (sRun qr kr (t.val / 4)) (vRun vr (t.val / 4)) ((t.val - 1) % 4) (PM m c t) (PL m c t) (PA m c t) := ih
  have key := rowInv_step (B0 m c t) (B1 m c t) (B2 m c t) _ _ _ (b0_real m qr c hQ t) (b1_real m kr c hK t _ hj) (b2_real m vr c hV t _ hj)
    (sRun qr kr (t.val / 4)) (vRun vr (t.val / 4)) ((t.val - 1) % 4) (fun r k => rfl) (fun k d => rfl) (PM m c t) (PL m c t) (PA m c t) ih'
  rw [← hj] at key
  by_cases h1 : t.val % 4 = 3
  · rw [last_M m c t h0 h1, last_L m c t h0 h1, last_A m c t h0 h1]; exact key
  · rw [mid_M m c t h0 h1, mid_L m c t h0 h1, mid_A m c t h0 h1]; exact key

/-- After every point. -/
theorem inv_all : ∀ (n : ℕ) (hn : n < cfg0.N), StateInv m qr kr vr c n hn := by
  intro n
  induction n using Nat.strong_induction_on with
  | _ n IH =>
    intro hn
    by_cases h0 : n % 4 = 0
    · exact inv_first m qr kr vr c hQ hK hV ⟨n, hn⟩ h0
    · exact inv_next m qr kr vr c hQ hK hV ⟨n, hn⟩ h0 (IH (n - 1) (by omega) _)

/-- What a run's last point writes back is its block of attention. -/
theorem flushed_eq (t : Fin cfg0.N) (hf : (cfg0.win 3).flush t = true) :
    (dats m 0 c).flushed 3 t = ((cfg0.win 3).blk t).view.read (Elt Ideal) (G qr kr vr) := by
  have h1 : t.val % 4 = 3 := (flush0_3 t).mp hf
  have h0 : ¬t.val % 4 = 0 := by omega
  have hinv := inv_all m qr kr vr c hQ hK hV t.val t.isLt
  unfold StateInv at hinv
  rw [last_M m c t h0 h1, last_L m c t h0 h1, last_A m c t h0 h1] at hinv
  rw [last_flushed m c t h0 h1]
  funext y
  have hy0 : (y 0).val < 1 := (y 0).isLt
  obtain ⟨r, d, rfl⟩ : ∃ (r : Fin 1024) (d : Fin 64), y = ix3 (0 : Fin 1) r d :=
    ⟨y 1, y 2, funext fun a => by
      match a with
      | ⟨0, _⟩ => exact Fin.ext (by show (y 0).val = 0; omega)
      | ⟨1, _⟩ => rfl
      | ⟨2, _⟩ => rfl⟩
  show k0_pay4 (F := Ideal) (k0_pay2 (F := Ideal) (k0_pay8 (F := Ideal) (B2 m c t)) (k0_pay11 (F := Ideal) (B0 m c t) (B1 m c t) (PM m c t) (PM m c t)) (k0_pay12 (F := Ideal) (B0 m c t) (B1 m c t) (PM m c t)) (PA m c t)) (k0_pay1 (F := Ideal) (k0_pay13 (F := Ideal) (B0 m c t) (B1 m c t) (PM m c t) (PM m c t) (PL m c t))) (ix3 (0 : Fin 1) r d)
    = G qr kr vr (((cfg0.win 3).blk t).view.emb (ix3 (0 : Fin 1) r d))
  rw [emb3_apply, G_ix3]
  refine (rowInv_quot _ _ _ _ _ _ hinv r d).trans ?_
  rw [h1]
  unfold Gat
  rfl

omit hQ hK hV in
/-- Every index of the result array lies in the block of some run's last point. -/
theorem cover (i : S16x4096x64.Idx) : ∃ t : Fin cfg0.N, (cfg0.win 3).flush t = true ∧ i ∈ ((cfg0.win 3).blk t).view.set := by
  have hb : (i 0).val < 16 := (i 0).isLt
  have hq : (i 1).val < 4096 := (i 1).isLt
  have hd : (i 2).val < 64 := (i 2).isLt
  have hN : cfg0.N = 256 := N_0
  obtain ⟨t, ht⟩ : ∃ t : Fin cfg0.N, t.val = 16 * (i 0).val + 4 * ((i 1).val / 1024) + 3 := ⟨⟨_, by rw [hN]; omega⟩, rfl⟩
  obtain ⟨-, -, -, -, -, -, -, -, -, e0, e1, e2⟩ := idx_facts t
  refine ⟨t, (flush0_3 t).mpr (by omega), ?_⟩
  show i ∈ ((View.whole main_v3).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The result array after the run. -/
theorem final : (dats m 0 c).arrAt 3 cfg0.N = G qr kr vr :=
  (dats m 0 c).arrAt_eq_of_cover 3 (G qr kr vr) (flushed_eq m qr kr vr c hQ hK hV) cover

end Cert.KernelIdeal.KValue

end
-- ==== Proof.LibRowQuant.lean ====
/-
  Row-wise quantize–dequantize, read at an index, at the ideal (extended-real) values.

  General lemmas, independent of any program:
  * a minimum / maximum reduction over the LAST axis of a rank-2 or rank-3 array — a kernel's
    `vector.multi_reduction` or a host `stablehlo.reduce` — is, at a row, the fold of `min` / `max` from the initial value
    over that row's entries (in any order: `min` and `max` commute and associate);
  * the keepdims column forms of the layout operations: a vector [a] cast to a column [a, 1], and a column [a, 1]
    broadcast over the columns of [a, b];
  * the asymmetric quantize–dequantize step `qdq`: with `scale = (vmax − vmin) / levels` and
    `zero = zlo − round (vmin / scale)`, an entry `x` goes to
    `(clamp (round (x / scale) + zero) − zero) · scale`; and the vector program computing it row by row
    (`qdqVec`) read at an entry (`qdqVec_apply`).
-/
import Idealize.ShloMosaic.PureOps.Ideal.Laws
import Idealize.ShloMosaic.Lib.ValueIdx
import Idealize.ShloMosaic.Lib.Pipeline.Value

noncomputable section

namespace Cert.RowQuant

open Idealize.ShloMosaic Idealize.ShloMosaic.ValueIdx

/-! ## The reduced index with the last coordinate put back -/

theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem lift_row3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-! ## Minimum and maximum over the last axis, as folds over the row -/

variable {φ : FTy}

/-- A `vector.multi_reduction <minimumf>` over one axis: the fold of `min` from the accumulator's value over that
    axis's coordinates. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

theorem kernel_rowMin {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_single]
  have hf : (src ∘ h.lift (ix1 r)) = fun k : Fin b => src (ix2 r k) := funext fun k => congrArg src (lift_row h r k)
  exact congrArg (fun f => Finset.fold min (Ideal.ofBits φ acc) f (Finset.univ : Finset (Fin b))) hf

theorem kernel_rowMax {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_row h r k)
  exact congrArg (fun f => Finset.fold max (Ideal.ofBits φ acc) f (Finset.univ : Finset (Fin b))) hf

/-- The host's reduce with a minimum body over the columns of a matrix, at row `r`. -/
theorem host_rowMin {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.minimumf x init h' hu (ix1 r)
      = (Finset.univ : Finset (Fin b)).fold min (init (Shape.Idx.first hu)) (fun k => x (ix2 r k)) := by
  rw [Host.reduce_eq_fold_single FloatOps.minimumf x _ h' h hu]
  have hf : (x ∘ h.lift (ix1 r)) = fun k : Fin b => x (ix2 r k) := funext fun k => congrArg x (lift_row h r k)
  exact congrArg (fun f => Finset.fold min (init (Shape.Idx.first hu)) f (Finset.univ : Finset (Fin b))) hf

theorem host_rowMax {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_row h r k)
  exact congrArg (fun f => Finset.fold max (init (Shape.Idx.first hu)) f (Finset.univ : Finset (Fin b))) hf

/-- The same over the last axis of a rank-3 array, at `(p, q)`. -/
theorem host_rowMin3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.minimumf x init h' hu (ix2 p q)
      = (Finset.univ : Finset (Fin d)).fold min (init (Shape.Idx.first hu)) (fun k => x (ix3 p q k)) := by
  rw [Host.reduce_eq_fold_single FloatOps.minimumf x _ h' h hu]
  have hf : (x ∘ h.lift (ix2 p q)) = fun k : Fin d => x (ix3 p q k) := funext fun k => congrArg x (lift_row3 h p q k)
  exact congrArg (fun f => Finset.fold min (init (Shape.Idx.first hu)) f (Finset.univ : Finset (Fin d))) hf

theorem host_rowMax3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.maximumf x init h' hu (ix2 p q)
      = (Finset.univ : Finset (Fin d)).fold max (init (Shape.Idx.first hu)) (fun k => x (ix3 p q k)) := by
  rw [Host.reduce_eq_fold_single FloatOps.maximumf x _ h' h hu]
  have hf : (x ∘ h.lift (ix2 p q)) = fun k : Fin d => x (ix3 p q k) := funext fun k => congrArg x (lift_row3 h p q k)
  exact congrArg (fun f => Finset.fold max (init (Shape.Idx.first hu)) f (Finset.univ : Finset (Fin d))) hf

/-! ## The keepdims column forms -/

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The quantize–dequantize step -/

/-- One entry `x` of a row whose least and greatest entries are `vmin` and `vmax`, quantized to the integer grid of step
    `scale = (vmax − vmin) / lvl` shifted by `zero = zlo − round (vmin / scale)`, clamped to `[clo, chi]`, and mapped back. -/
def qdq (lvl zlo clo chi vmin vmax x : EReal) : EReal :=
  (min chi (max clo (Ideal.liftRound Ideal.roundHalfEven (Ideal.div x (Ideal.div (vmax - vmin) lvl))
        + (zlo - Ideal.liftRound Ideal.roundHalfEven (Ideal.div vmin (Ideal.div (vmax - vmin) lvl)))))
      - (zlo - Ideal.liftRound Ideal.roundHalfEven (Ideal.div vmin (Ideal.div (vmax - vmin) lvl))))
    * Ideal.div (vmax - vmin) lvl

/-- The vector program: the rows' minima `A` and maxima `B` as columns, the scale and the zero point as columns, both
    broadcast over the row, the entries quantized, clamped and mapped back. -/
def qdqVec {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) :
    FVec Ideal ⟨2, ![a, b]⟩ .f32 :=
  have v2 : FVec Ideal ⟨2, ![a, 1]⟩ .f32 := shapeCast ⟨2, ![a, 1]⟩ A hsc
  have v4 : FVec Ideal ⟨2, ![a, 1]⟩ .f32 := shapeCast ⟨2, ![a, 1]⟩ B hsc
  have v7 : FVec Ideal ⟨2, ![a, 1]⟩ .f32 := divf (subf v4 v2) (broadcast ⟨2, ![a, 1]⟩ lvl)
  have v11 : FVec Ideal ⟨2, ![a, 1]⟩ .f32 := subf (broadcast ⟨2, ![a, 1]⟩ zlo) (roundeven (divf v2 v7))
  have v12 : FVec Ideal ⟨2, ![a, b]⟩ .f32 := broadcastTo ⟨2, ![a, b]⟩ v7 hbc
  have v15 : FVec Ideal ⟨2, ![a, b]⟩ .f32 := broadcastTo ⟨2, ![a, b]⟩ v11 hbc
  mulf (subf (minimumf (broadcast ⟨2, ![a, b]⟩ chi) (maximumf (broadcast ⟨2, ![a, b]⟩ clo) (addf (roundeven (divf x v12)) v15))) v15) v12

theorem qdqVec_apply {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) (r : Fin a) (q : Fin b) :
    qdqVec hsc hbc lvl zlo clo chi A B x (ix2 r q) = qdq lvl zlo clo chi (A (ix1 r)) (B (ix1 r)) (x (ix2 r q)) := by
  unfold qdqVec
  show (min chi (max clo (Ideal.liftRound Ideal.roundHalfEven (Ideal.div (x (ix2 r q)) (broadcastTo ⟨2, ![a, b]⟩ _ hbc (ix2 r q)))
        + broadcastTo ⟨2, ![a, b]⟩ _ hbc (ix2 r q))) - broadcastTo ⟨2, ![a, b]⟩ _ hbc (ix2 r q)) * broadcastTo ⟨2, ![a, b]⟩ _ hbc (ix2 r q) = _
  rw [broadcastTo_a1_ab_apply, broadcastTo_a1_ab_apply]
  show (min chi (max clo (Ideal.liftRound Ideal.roundHalfEven (Ideal.div (x (ix2 r q))
          (Ideal.div (shapeCast ⟨2, ![a, 1]⟩ B hsc (ix2 r (0 : Fin 1)) - shapeCast ⟨2, ![a, 1]⟩ A hsc (ix2 r (0 : Fin 1))) lvl))
        + (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl)))))
      - (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl))))
      * Ideal.div (shapeCast ⟨2, ![a, 1]⟩ B hsc (ix2 r (0 : Fin 1)) - shapeCast ⟨2, ![a, 1]⟩ A hsc (ix2 r (0 : Fin 1))) lvl = _
  rw [shapeCast_a_a1_apply, shapeCast_a_a1_apply]
  rfl

/-- The same step spelt with the host's operations (the host's quotient and rounding are the kernel's at the ideal values). -/
theorem qdq_host (lvl zlo clo chi A B X : Ideal .f32) :
    FloatOps.mulf
        (FloatOps.subf
          (FloatOps.minimumf chi (FloatOps.maximumf clo
            (FloatOps.addf (FloatOps.hostUnary .roundeven (FloatOps.hostDivf X (FloatOps.hostDivf (FloatOps.subf B A) lvl)))
              (FloatOps.subf zlo (FloatOps.hostUnary .roundeven (FloatOps.hostDivf A (FloatOps.hostDivf (FloatOps.subf B A) lvl)))))))
          (FloatOps.subf zlo (FloatOps.hostUnary .roundeven (FloatOps.hostDivf A (FloatOps.hostDivf (FloatOps.subf B A) lvl)))))
        (FloatOps.hostDivf (FloatOps.subf B A) lvl)
      = qdq lvl zlo clo chi A B X := rfl

end Cert.RowQuant

end
-- ==== Proof.RefValue.lean ====
/-
  The reference's result, index by index, is attention.

  With real numbers in Q, K, V the reference computes, at batch b and query row q: the scores rho(key) = (Q[b, q, ·] · K[b, key, ·]) / 8
  (its scale 1 / sqrt 64 is the real 1/8); their maximum mu, a real number; the weights exp (rho - mu) and their sum L > 0;
  and, at column c, the sum over the keys of (exp (rho - mu) / L) * V[b, key, c] — the softmax-weighted mean, which does
  not depend on mu (Spec).
-/
import proofs.«115019_j87308095193108_2_alg».proof.Proof.Gen.ReferenceIdeal.Read
import proofs.«115019_j87308095193108_2_alg».proof.Proof.Spec
import proofs.«115019_j87308095193108_2_alg».proof.Proof.LibRowQuant

noncomputable section

namespace Cert.ReferenceIdeal.RefValue

open Cert.ReferenceIdeal Cert.ReferenceIdeal.Gen Cert.ReferenceIdeal.Read Idealize.ShloMosaic Idealize.ShloMosaic.ValueIdx
open Cert.Flash Cert.RowQuant

variable (Q K V : FVec Ideal S16x4096x64 .f32) (qr kr vr : Arr)
variable (hQ : ∀ i, Q i = ((qr i : ℝ) : EReal)) (hK : ∀ i, K i = ((kr i : ℝ) : EReal)) (hV : ∀ i, V i = ((vr i : ℝ) : EReal))

/-- The reference's real score. -/
def rho (b : Fin 16) (q key : Fin 4096) : ℝ := (∑ d : Fin 64, qr (ix3 b q d) * kr (ix3 b key d)) * (1 / 8)

include hQ hK in
/-- The scaled scores. -/
theorem v4_apply (b : Fin 16) (q key : Fin 4096) :
    val_main_v4 (F := Ideal) Q K (ix3 b q key) = ((rho qr kr b q key : ℝ) : EReal) := by
  rw [val_main_v4_apply, val_main_v2_apply, val_main_v3_apply, val_main_v1_apply, val_main_v0_apply, val_main_cst_apply,
    val_main_cst_0_apply]
  have el : ∀ d, lidx_main_v2 (ix3 b q key) d = ix3 b q d := fun d => funext fun a => Fin.ext (by
    match a with | ⟨0, _⟩ => rfl | ⟨1, _⟩ => rfl | ⟨2, _⟩ => rfl)
  have er : ∀ d, ridx_main_v2 (ix3 b q key) d = ix3 b key d := fun d => funext fun a => Fin.ext (by
    match a with | ⟨0, _⟩ => rfl | ⟨1, _⟩ => rfl | ⟨2, _⟩ => rfl)
  simp only [el, er, hQ, hK, ← EReal.coe_mul, Ideal.mulf_def, Ideal.hostDivf_def, Ideal.hostUnary_sqrt_def, Ideal.ofBits_def]
  rw [coe_sum, ref_scale, ← EReal.coe_mul]
  rfl

include hQ hK in
/-- The row maximum is a real number. -/
theorem v7_real (b : Fin 16) (q : Fin 4096) : ∃ μ : ℝ, val_main_v7 (F := Ideal) Q K (ix2 b q) = ((μ : ℝ) : EReal) := by
  obtain ⟨τ, hτ⟩ := fold_max_real (Finset.univ : Finset (Fin 4096)) ⟨⟨0, by norm_num⟩, Finset.mem_univ _⟩ (fun k => rho qr kr b q k)
  refine ⟨τ, ?_⟩
  rw [val_main_v7_apply, val_main_v6_apply, val_main_cst_2_apply]
  unfold val_main_v5
  rw [host_rowMax3 (val_main_v4 (F := Ideal) Q K) (val_main_cst_1 (F := Ideal)) reducesTo_S16x4096x4096_S16x4096_d2 (by decide) h_S_ b q]
  have hf : (fun k : Fin 4096 => val_main_v4 (F := Ideal) Q K (ix3 b q k)) = fun k => ((rho qr kr b q k : ℝ) : EReal) :=
    funext fun k => v4_apply Q K qr kr hQ hK b q k
  rw [hf, val_main_cst_1_apply]
  simp only [Ideal.maximumf_def, Ideal.ofBits_def]
  rw [ofBits_neg_inf, hτ]
  exact max_bot_left _

include hQ hK in
/-- The weights. -/
theorem v11_apply (b : Fin 16) (q key : Fin 4096) (μ : ℝ) (hμ : val_main_v7 (F := Ideal) Q K (ix2 b q) = ((μ : ℝ) : EReal)) :
    val_main_v11 (F := Ideal) Q K (ix3 b q key) = ((Real.exp (rho qr kr b q key - μ) : ℝ) : EReal) := by
  rw [val_main_v11_apply, val_main_v10_apply, val_main_v9_apply, val_main_v8_apply, v4_apply Q K qr kr hQ hK]
  have ei : idx_main_v8 (idx_main_v9 (ix3 b q key)) = ix2 b q := funext fun a => Fin.ext (by
    match a with | ⟨0, _⟩ => rfl | ⟨1, _⟩ => rfl)
  rw [ei, hμ]
  simp only [Ideal.subf_def, Ideal.hostUnary_exp_def]
  exact exp_coe_sub _ _

include hQ hK in
/-- The normalizer. -/
theorem v12_apply (b : Fin 16) (q : Fin 4096) (μ : ℝ) (hμ : val_main_v7 (F := Ideal) Q K (ix2 b q) = ((μ : ℝ) : EReal)) :
    val_main_v12 (F := Ideal) Q K (ix2 b q) = ((∑ key : Fin 4096, Real.exp (rho qr kr b q key - μ) : ℝ) : EReal) := by
  rw [val_main_v12_apply, val_main_cst_3_apply]
  have ei : ∀ k, idx_main_v12 (ix2 b q) k = ix3 b q k := fun k => funext fun a => Fin.ext (by
    match a with | ⟨0, _⟩ => rfl | ⟨1, _⟩ => rfl | ⟨2, _⟩ => rfl)
  simp only [ei, v11_apply Q K qr kr hQ hK b q _ μ hμ, Ideal.ofBits_def]
  rw [Ideal.ofBits_zero_f32, zero_add, coe_sum]

include hQ hK in
/-- The normalized weights. -/
theorem v15_apply (b : Fin 16) (q key : Fin 4096) (μ : ℝ) (hμ : val_main_v7 (F := Ideal) Q K (ix2 b q) = ((μ : ℝ) : EReal)) :
    val_main_v15 (F := Ideal) Q K (ix3 b q key)
      = ((Real.exp (rho qr kr b q key - μ) / ∑ key' : Fin 4096, Real.exp (rho qr kr b q key' - μ) : ℝ) : EReal) := by
  rw [val_main_v15_apply, val_main_v14_apply, val_main_v13_apply, v11_apply Q K qr kr hQ hK b q key μ hμ]
  have ei : idx_main_v13 (idx_main_v14 (ix3 b q key)) = ix2 b q := funext fun a => Fin.ext (by
    match a with | ⟨0, _⟩ => rfl | ⟨1, _⟩ => rfl)
  rw [ei, v12_apply Q K qr kr hQ hK b q μ hμ]
  simp only [Ideal.hostDivf_def]
  have hpos : 0 < ∑ key' : Fin 4096, Real.exp (rho qr kr b q key' - μ) :=
    Finset.sum_pos (fun k _ => Real.exp_pos _) ⟨⟨0, by norm_num⟩, Finset.mem_univ _⟩
  exact div_real _ _ hpos.ne'

include hQ hK hV in
/-- The reference's result at (b, q, c). -/
theorem v16_apply (b : Fin 16) (q : Fin 4096) (c : Fin 64) :
    val_main_v16 (F := Ideal) Q K V (ix3 b q c) = Gat qr kr vr b q c := by
  obtain ⟨μ, hμ⟩ := v7_real Q K qr kr hQ hK b q
  rw [val_main_v16_apply]
  have el : ∀ k, lidx_main_v16 (ix3 b q c) k = ix3 b q k := fun k => funext fun a => Fin.ext (by
    match a with | ⟨0, _⟩ => rfl | ⟨1, _⟩ => rfl | ⟨2, _⟩ => rfl)
  have er : ∀ k, ridx_main_v16 (ix3 b q c) k = ix3 b k c := fun k => funext fun a => Fin.ext (by
    match a with | ⟨0, _⟩ => rfl | ⟨1, _⟩ => rfl | ⟨2, _⟩ => rfl)
  simp only [el, er, v15_apply Q K qr kr hQ hK b q _ μ hμ, hV, ← EReal.coe_mul]
  rw [coe_sum]
  unfold Gat
  refine congrArg (fun z : ℝ => ((z : ℝ) : EReal)) ?_
  haveI : Nonempty (Fin 4096) := ⟨⟨0, by norm_num⟩⟩
  rw [softmax_mean (fun key => rho qr kr b q key) (fun key => vr (ix3 b key c)) μ]
  have hs : ∀ key : Fin 4096, rho qr kr b q key = ∑ d : Fin 64, (qr (ix3 b q d) * (1 / 8)) * kr (ix3 b key d) :=
    fun key => score_forms qr kr b q key
  have hn := part_all (fun key : Fin 4096 => ∑ d : Fin 64, (qr (ix3 b q d) * (1 / 8)) * kr (ix3 b key d)) (fun key => vr (ix3 b key c))
  have hd := part_all (fun key : Fin 4096 => ∑ d : Fin 64, (qr (ix3 b q d) * (1 / 8)) * kr (ix3 b key d)) (fun _ => 1)
  have hn' : part (sc qr kr b q) (va vr b c) 4 0 = ∑ key : Fin 4096, Real.exp (rho qr kr b q key) * vr (ix3 b key c) := by
    simp only [hs]; exact hn
  have hd' : part (sc qr kr b q) (fun _ _ => 1) 4 0 = ∑ key : Fin 4096, Real.exp (rho qr kr b q key) := by
    simp only [hs]; exact hd.trans (Finset.sum_congr rfl fun k _ => mul_one _)
  rw [hn', hd']

include hQ hK hV in
/-- The reference's result array is attention. -/
theorem ref_eq : val_main_v16 (F := Ideal) Q K V = G qr kr vr := by
  funext j
  obtain ⟨b, q, c, rfl⟩ : ∃ (b : Fin 16) (q : Fin 4096) (c : Fin 64), j = ix3 b q c := ⟨j 0, j 1, j 2, eq_ix3 j⟩
  rw [G_ix3]
  exact v16_apply Q K V qr kr vr hQ hK hV b q c

end Cert.ReferenceIdeal.RefValue

end
-- ==== Proof.Finite.lean ====
/-
  The precondition, read back: every entry of the three argument arrays is a real number.

  The predicate is the conjunction of three tests, each "all entries satisfy |x| < +infinity". An extended real whose
  absolute value max x (-x) is below +infinity is neither infinity, hence a real number.
-/
import proofs.«115019_j87308095193108_2_alg».proof.Proof.Gen.Pre_finite_inputs
import proofs.«115019_j87308095193108_2_alg».proof.Proof.Softmax
import Idealize.ShloMosaic.Lib.ReduceAll
import Idealize.ShloMosaic.Lib.ValueIdx
import Idealize.ShloMosaic.PureOps.Ideal.Laws

noncomputable section

namespace Cert.Flash

open Idealize.ShloMosaic

theorem ofBits_pos_inf : Ideal.ofBits .f32 0x7F800000#32 = (⊤ : EReal) := by
  simp [Ideal.ofBits, Ideal.ieee]

/-- An extended real with |x| < +infinity is a real number. -/
theorem real_of_abs_lt (a : EReal) (h : Ideal.cmp .olt (max a (-a)) (Ideal.ofBits .f32 0x7F800000#32) = 1#1) :
    ∃ r : ℝ, a = ((r : ℝ) : EReal) := by
  rw [ofBits_pos_inf] at h
  have hlt : max a (-a) < ⊤ := by
    by_contra hn
    have : Ideal.cmp .olt (max a (-a)) ⊤ = 0#1 := by
      unfold Ideal.cmp; simp [hn]
    rw [this] at h; exact absurd h (by decide)
  induction a using EReal.rec with
  | bot => exact absurd hlt (by simp)
  | coe r => exact ⟨r, rfl⟩
  | top => exact absurd hlt (by simp)

instance : Subsingleton Cert.Pre_finite_inputs.S_.Idx := ⟨fun a b => funext fun d => d.elim0⟩

/-- The precondition's three tests, entry by entry. -/
theorem finite_of_pre [Cert.Pre_finite_inputs.Facts] (a0 a1 a2 : FVec Ideal Cert.Pre_finite_inputs.S16x4096x64 .f32)
    (h : Cert.Pre_finite_inputs.fn (F := Ideal) a0 a1 a2 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal)) := by
  have h1 := congrFun h ValueIdx.ix0
  dsimp only [Cert.Pre_finite_inputs.fn] at h1
  obtain ⟨h12, h3⟩ := IntOp.andi_eq_one.mp h1
  obtain ⟨h1', h2'⟩ := IntOp.andi_eq_one.mp h12
  refine ⟨fun i => ?_, fun i => ?_, fun i => ?_⟩
  · exact real_of_abs_lt (a0 i) (Host.reduce_andi_all _ _ _ _ _ h1' i)
  · exact real_of_abs_lt (a1 i) (Host.reduce_andi_all _ _ _ _ _ h2' i)
  · exact real_of_abs_lt (a2 i) (Host.reduce_andi_all _ _ _ _ _ h3 i)

end Cert.Flash

end
-- ==== Proof.lean ====
/-
  Dense scaled-dot-product attention, tiled over the keys with a running softmax, against the plain softmax reference:
  the two idealized programs compute the same array over the extended reals whenever the inputs are finite.

  For batch b, query row q and column c both results are
      (sum over the 4096 keys of exp s(key) * V[b, key, c]) / (sum over the keys of exp s(key)),
      s(key) = sum over the 64 features of (Q[b, q, ·] / 8) * K[b, key, ·].
  The kernel scales the query row by 1/8 before the product, the reference scales the product by 1 / sqrt 64: the same
  real number, 64 being the square of 8. The kernel meets the keys in four tiles, keeping a running maximum, normalizer and
  weighted sum per row, rescaled by exp (old maximum - new maximum) at every tile; the sums it ends with are the
  reference's sums multiplied by one common factor, which the closing quotient cancels (the shift law, Softmax; the row
  invariant, RowStep; the induction over the grid, KernelValue). The reference subtracts the row maximum before
  exponentiating and divides each weight by the normalizer before the second product; its result is the same weighted
  mean (RefValue). Finiteness of the inputs is what lets products distribute over these sums; it is read off the
  precondition entry by entry (Finite). The three frames are the generated frame runs; the idealization rewrote nothing.
-/
import proofs.«115019_j87308095193108_2_alg».proof.Defs
import proofs.«115019_j87308095193108_2_alg».proof.Proof.Gen.Kernel
import proofs.«115019_j87308095193108_2_alg».proof.Proof.Gen.Kernel.Skeleton
import proofs.«115019_j87308095193108_2_alg».proof.Proof.Gen.Kernel.Launch
import proofs.«115019_j87308095193108_2_alg».proof.Proof.Gen.Kernel.Points
import proofs.«115019_j87308095193108_2_alg».proof.Proof.Gen.Kernel.Frame
import proofs.«115019_j87308095193108_2_alg».proof.Proof.Gen.KernelIdeal
import proofs.«115019_j87308095193108_2_alg».proof.Proof.Gen.KernelIdeal.Skeleton
import proofs.«115019_j87308095193108_2_alg».proof.Proof.Gen.KernelIdeal.Launch
import proofs.«115019_j87308095193108_2_alg».proof.Proof.Gen.KernelIdeal.Points
import proofs.«115019_j87308095193108_2_alg».proof.Proof.Gen.KernelIdeal.Frame
import proofs.«115019_j87308095193108_2_alg».proof.Proof.Gen.ReferenceIdeal
import proofs.«115019_j87308095193108_2_alg».proof.Proof.Gen.Pre_finite_inputs
import proofs.«115019_j87308095193108_2_alg».proof.Proof.Gen.KernelIdeal.Value
import proofs.«115019_j87308095193108_2_alg».proof.Proof.Gen.ReferenceIdeal.Run
import proofs.«115019_j87308095193108_2_alg».proof.Proof.Gen.ReferenceIdeal.Read
import proofs.«115019_j87308095193108_2_alg».proof.Proof.KernelValue
import proofs.«115019_j87308095193108_2_alg».proof.Proof.RefValue
import proofs.«115019_j87308095193108_2_alg».proof.Proof.Finite
import Idealize.ShloMosaic.Adequacy
import Idealize.ShloMosaic.Init

noncomputable section

namespace Cert.Proof

open Idealize.ShloMosaic Idealize.ShloMosaic.TcCoe Idealize.SL.Sem Cert.Flash

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with attention of the (finite) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => @finite_of_pre Cert.Pre_finite_inputs.Gen.facts _ _ _ (hpre c)
  have f0 : ∀ (c : Dev Cert.KernelIdeal.nD) (i : Cert.KernelIdeal.S16x4096x64.Idx), ∃ r : ℝ,
      m ((c.tc : Thread Cert.KernelIdeal.nD Cert.KernelIdeal.τ).loc Cert.KernelIdeal.main_arg0) i = ((r : ℝ) : EReal) := fun c => (hfin c).1
  have f1 : ∀ (c : Dev Cert.KernelIdeal.nD) (i : Cert.KernelIdeal.S16x4096x64.Idx), ∃ r : ℝ,
      m ((c.tc : Thread Cert.KernelIdeal.nD Cert.KernelIdeal.τ).loc Cert.KernelIdeal.main_arg1) i = ((r : ℝ) : EReal) := fun c => (hfin c).2.1
  have f2 : ∀ (c : Dev Cert.KernelIdeal.nD) (i : Cert.KernelIdeal.S16x4096x64.Idx), ∃ r : ℝ,
      m ((c.tc : Thread Cert.KernelIdeal.nD Cert.KernelIdeal.τ).loc Cert.KernelIdeal.main_arg2) i = ((r : ℝ) : EReal) := fun c => (hfin c).2.2
  choose qr hq using f0
  choose kr hk using f1
  choose vr hv using f2
  refine ⟨fun c => G (qr c) (kr c) (vr c), ?_, ?_⟩
  · exact (θ_run Cert.KernelIdeal.defs _ _).mono
      (fun r h c => ⟨(h c).1.trans (Cert.KernelIdeal.KValue.final m (qr c) (kr c) (vr c) c (hq c) (hk c) (hv c)), (h c).2⟩)
      (Cert.KernelIdeal.Value.run_blocks m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v16_eq]
    exact Cert.ReferenceIdeal.RefValue.ref_eq _ _ _ (qr c) (kr c) (vr c)
      (fun i => by rw [(hagree c).1]; exact hq c i) (fun i => by rw [(hagree c).2.1]; exact hk c i)
      (fun i => by rw [(hagree c).2.2]; exact hv c i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
